-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S4x4096x1024 .f32) (main_arg1 : IVec S4x4096 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S4x4096x1024 : Shape := ⟨3, ![4, 4096, 1024]⟩
abbrev S4x4096 : Shape := ⟨2, ![4, 4096]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x1x64 : Shape := ⟨4, ![4, 16, 1, 64]⟩
abbrev S4x1x4096x1 : Shape := ⟨4, ![4, 1, 4096, 1]⟩
abbrev S1x1x4096x64 : Shape := ⟨4, ![1, 1, 4096, 64]⟩
abbrev S4096x64 : Shape := ⟨2, ![4096, 64]⟩
abbrev S64x4096 : Shape := ⟨2, ![64, 4096]⟩
abbrev S64x64 : Shape := ⟨2, ![64, 64]⟩

abbrev nBuf : Space → Nat
  | .hbm => 65
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S1024x1024, .f32⟩
  | .hbm, ⟨12, _⟩ => ⟨S1x1024, .f32⟩
  | .hbm, ⟨13, _⟩ => ⟨S16384x1024, .f32⟩
  | .hbm, ⟨14, _⟩ => ⟨S1024x1024, .f32⟩
  | .hbm, ⟨15, _⟩ => ⟨S1x1024, .f32⟩
  | .hbm, ⟨16, _⟩ => ⟨S16384x1024, .f32⟩
  | .hbm, ⟨17, _⟩ => ⟨S1024x1024, .f32⟩
  | .hbm, ⟨18, _⟩ => ⟨S1x1024, .f32⟩
  | .hbm, ⟨19, _⟩ => ⟨S16384x1024, .f32⟩
  | .hbm, ⟨20, _⟩ => ⟨S4x4096x16x64, .f32⟩
  | .hbm, ⟨21, _⟩ => ⟨S4x16x4096x64, .f32⟩
  | .hbm, ⟨22, _⟩ => ⟨S4x4096x16x64, .f32⟩
  | .hbm, ⟨23, _⟩ => ⟨S4x16x4096x64, .f32⟩
  | .hbm, ⟨24, _⟩ => ⟨S4x4096x16x64, .f32⟩
  | .hbm, ⟨25, _⟩ => ⟨S4x16x4096x64, .f32⟩
  | .hbm, ⟨26, _⟩ => ⟨S_, .f32⟩
  | .hbm, ⟨27, _⟩ => ⟨S4x16x4096, .f32⟩
  | .hbm, ⟨28, _⟩ => ⟨S_, .f32⟩
  | .hbm, ⟨29, _⟩ => ⟨S4x16x4096, .f32⟩
  | .hbm, ⟨30, _⟩ => ⟨S4x16x4096, .f32⟩
  | .hbm, ⟨31, _⟩ => ⟨S4x16x4096x1, .f32⟩
  | .hbm, ⟨32, _⟩ => ⟨S4x16x4096x64, .f32⟩
  | .hbm, ⟨33, _⟩ => ⟨S4x16x4096x64, .f32⟩
  | .hbm, ⟨34, _⟩ => ⟨S4x16x4096x64, .f32⟩
  | .hbm, ⟨35, _⟩ => ⟨S_, .f32⟩
  | .hbm, ⟨36, _⟩ => ⟨S4x16x4096, .f32⟩
  | .hbm, ⟨37, _⟩ => ⟨S4x16x4096x1, .f32⟩
  | .hbm, ⟨38, _⟩ => ⟨S4x16x4096x64, .f32⟩
  | .hbm, ⟨39, _⟩ => ⟨S4x16x4096x64, .f32⟩
  | .hbm, ⟨40, _⟩ => ⟨S_, .f32⟩
  | .hbm, ⟨41, _⟩ => ⟨S4x16x64, .f32⟩
  | .hbm, ⟨42, _⟩ => ⟨S_, .f32⟩
  | .hbm, ⟨43, _⟩ => ⟨S4x16x64, .f32⟩
  | .hbm, ⟨44, _⟩ => ⟨S4x16x64, .f32⟩
  | .hbm, ⟨45, _⟩ => ⟨S4x16x1x64, .f32⟩
  | .hbm, ⟨46, _⟩ => ⟨S4x16x4096x64, .f32⟩
  | .hbm, ⟨47, _⟩ => ⟨S4x16x4096x64, .f32⟩
  | .hbm, ⟨48, _⟩ => ⟨S4x16x4096x64, .f32⟩
  | .hbm, ⟨49, _⟩ => ⟨S_, .f32⟩
  | .hbm, ⟨50, _⟩ => ⟨S4x16x64, .f32⟩
  | .hbm, ⟨51, _⟩ => ⟨S4x16x1x64, .f32⟩
  | .hbm, ⟨52, _⟩ => ⟨S4x16x4096x64, .f32⟩
  | .hbm, ⟨53, _⟩ => ⟨S4x16x4096x64, .f32⟩
  | .hbm, ⟨54, _⟩ => ⟨S4x4096, .f32⟩
  | .hbm, ⟨55, _⟩ => ⟨S4x1x4096x1, .f32⟩
  | .hbm, ⟨56, _⟩ => ⟨S4x16x4096x64, .f32⟩
  | .hbm, ⟨57, _⟩ => ⟨S4x16x4096x64, .f32⟩
  | .hbm, ⟨58, _⟩ => ⟨S4x16x4096x64, .f32⟩
  | .hbm, ⟨59, _⟩ => ⟨S4x4096x16x64, .f32⟩
  | .hbm, ⟨60, _⟩ => ⟨S16384x1024, .f32⟩
  | .hbm, ⟨61, _⟩ => ⟨S1024x1024, .f32⟩
  | .hbm, ⟨62, _⟩ => ⟨S1x1024, .f32⟩
  | .hbm, ⟨63, _⟩ => ⟨S16384x1024, .f32⟩
  | .hbm, ⟨64, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1x4096x64, .f32⟩
  | .local _ .vmem, ⟨19, _⟩ => ⟨S1x1x4096x64, .f32⟩
  | .local _ .vmem, ⟨20, _⟩ => ⟨S1x1x4096x64, .f32⟩
  | .local _ .vmem, ⟨21, _⟩ => ⟨S1x1x4096x64, .f32⟩
  | .local _ .vmem, ⟨22, _⟩ => ⟨S1x1x4096x64, .f32⟩
  | .local _ .vmem, ⟨23, _⟩ => ⟨S1x1x4096x64, .f32⟩
  | .local _ .vmem, ⟨24, _⟩ => ⟨S1x1x4096x64, .f32⟩
  | .local _ .vmem, ⟨25, _⟩ => ⟨S1x1x4096x64, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 16], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x4096x1024_S16384x1024 : S4x4096x1024.ShapeCasts S16384x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x1024_S4x4096x16x64 : S16384x1024.ShapeCasts S4x4096x16x64
  transposes_S4x4096x16x64_S4x16x4096x64_0_2_1_3 : S4x4096x16x64.Transposes [0, 2, 1, 3] S4x16x4096x64
  reducesTo_S4x16x4096x64_S4x16x4096_d3 : S4x16x4096x64.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x4096x64_S4x16x64_d2 : S4x16x4096x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x4096x64_0_1_2_3 : S4x16x1x64.BroadcastsInDim S4x16x4096x64 (![0, 1, 2, 3] : Fin 4 → Fin S4x16x4096x64.rank)
  bcast_S4x4096_S4x1x4096x1_0_2 : S4x4096.BroadcastsInDim S4x1x4096x1 (![0, 2] : Fin 2 → Fin S4x1x4096x1.rank)
  bcast_S4x1x4096x1_S4x16x4096x64_0_1_2_3 : S4x1x4096x1.BroadcastsInDim S4x16x4096x64 (![0, 1, 2, 3] : Fin 4 → Fin S4x16x4096x64.rank)
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  transposes_S4096x64_p1_0_S64x4096 : S4096x64.Transposes [1, 0] S64x4096
  shapeCasts_S4096x64_S1x1x4096x64 : S4096x64.ShapeCasts S1x1x4096x64
  transposes_S4x16x4096x64_S4x4096x16x64_0_2_1_3 : S4x16x4096x64.Transposes [0, 2, 1, 3] S4x4096x16x64
  shapeCasts_S4x4096x16x64_S16384x1024 : S4x4096x16x64.ShapeCasts S16384x1024
  shapeCasts_S16384x1024_S4x4096x1024 : S16384x1024.ShapeCasts S4x4096x1024
  dot_S1024x1024_S1024x1024_S1024x1024_1_0_0_1_n_n_wf : DotDims.WF S1024x1024 S1024x1024 S1024x1024 [1] [0] [0] [1] [] []
  dot_S64x4096_S4096x64_S64x64_1_0_0_1_n_n_wf : DotDims.WF S64x4096 S4096x64 S64x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x1024.size a
  hwx2_3 : ∀ i : grid2.Coords, EltTy.bits .f32 = 32 ∨ (Rect.block (s := S16384x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x4096x64.size a ≤ S4x16x4096x64.size a
  hwx3_0 : ∀ i : grid3.Coords, EltTy.bits .f32 = 32 ∨ (Rect.block (s := S4x16x4096x64) S1x1x4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x4096x64.size a ≤ S4x16x4096x64.size a
  hwx3_1 : ∀ i : grid3.Coords, EltTy.bits .f32 = 32 ∨ (Rect.block (s := S4x16x4096x64) S1x1x4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x4096x64.size a ≤ S4x16x4096x64.size a
  hwx3_2 : ∀ i : grid3.Coords, EltTy.bits .f32 = 32 ∨ (Rect.block (s := S4x16x4096x64) S1x1x4096x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x4096x64.size a ≤ S4x16x4096x64.size a
  hwx3_3 : ∀ i : grid3.Coords, EltTy.bits .f32 = 32 ∨ (Rect.block (s := S4x16x4096x64) S1x1x4096x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S16384x1024.size a
  hwx4_0 : ∀ i : grid4.Coords, EltTy.bits .f32 = 32 ∨ (Rect.block (s := S16384x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S16384x1024.size a
  hwx4_3 : ∀ i : grid4.Coords, EltTy.bits .f32 = 32 ∨ (Rect.block (s := S16384x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S1x1x4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x1x4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1x4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x1x4096x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S1024x1024 : Shape := ⟨2, ![1024, 1024]⟩
abbrev S1024 : Shape := ⟨1, ![1024]⟩
abbrev S1x1x1024 : Shape := ⟨3, ![1, 1, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x1x64 : Shape := ⟨4, ![4, 16, 1, 64]⟩
abbrev S4x1x4096x1 : Shape := ⟨4, ![4, 1, 4096, 1]⟩
abbrev S4x16x64x64 : Shape := ⟨4, ![4, 16, 64, 64]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x4096x1024, .f32⟩
  | .hbm, ⟨11, _⟩ => ⟨S1x1x1024, .f32⟩
  | .hbm, ⟨12, _⟩ => ⟨S4x4096x1024, .f32⟩
  | .hbm, ⟨13, _⟩ => ⟨S4x4096x1024, .f32⟩
  | .hbm, ⟨14, _⟩ => ⟨S4x4096x16x64, .f32⟩
  | .hbm, ⟨15, _⟩ => ⟨S4x16x4096x64, .f32⟩
  | .hbm, ⟨16, _⟩ => ⟨S_, .f32⟩
  | .hbm, ⟨17, _⟩ => ⟨S4x16x4096, .f32⟩
  | .hbm, ⟨18, _⟩ => ⟨S_, .f32⟩
  | .hbm, ⟨19, _⟩ => ⟨S4x16x4096, .f32⟩
  | .hbm, ⟨20, _⟩ => ⟨S4x16x4096, .f32⟩
  | .hbm, ⟨21, _⟩ => ⟨S4x16x4096x1, .f32⟩
  | .hbm, ⟨22, _⟩ => ⟨S4x16x4096x64, .f32⟩
  | .hbm, ⟨23, _⟩ => ⟨S4x16x4096x64, .f32⟩
  | .hbm, ⟨24, _⟩ => ⟨S4x16x4096x64, .f32⟩
  | .hbm, ⟨25, _⟩ => ⟨S_, .f32⟩
  | .hbm, ⟨26, _⟩ => ⟨S4x16x4096, .f32⟩
  | .hbm, ⟨27, _⟩ => ⟨S4x16x4096x1, .f32⟩
  | .hbm, ⟨28, _⟩ => ⟨S4x16x4096x64, .f32⟩
  | .hbm, ⟨29, _⟩ => ⟨S4x16x4096x64, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x16x64, .f32⟩
  | .hbm, ⟨35, _⟩ => ⟨S4x16x4096x64, .f32⟩
  | .hbm, ⟨36, _⟩ => ⟨S_, .f32⟩
  | .hbm, ⟨37, _⟩ => ⟨S4x16x64, .f32⟩
  | .hbm, ⟨38, _⟩ => ⟨S_, .f32⟩
  | .hbm, ⟨39, _⟩ => ⟨S4x16x64, .f32⟩
  | .hbm, ⟨40, _⟩ => ⟨S4x16x64, .f32⟩
  | .hbm, ⟨41, _⟩ => ⟨S4x16x1x64, .f32⟩
  | .hbm, ⟨42, _⟩ => ⟨S4x16x4096x64, .f32⟩
  | .hbm, ⟨43, _⟩ => ⟨S4x16x4096x64, .f32⟩
  | .hbm, ⟨44, _⟩ => ⟨S4x16x4096x64, .f32⟩
  | .hbm, ⟨45, _⟩ => ⟨S_, .f32⟩
  | .hbm, ⟨46, _⟩ => ⟨S4x16x64, .f32⟩
  | .hbm, ⟨47, _⟩ => ⟨S4x16x1x64, .f32⟩
  | .hbm, ⟨48, _⟩ => ⟨S4x16x4096x64, .f32⟩
  | .hbm, ⟨49, _⟩ => ⟨S4x16x4096x64, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x16x64, .f32⟩
  | .hbm, ⟨55, _⟩ => ⟨S4x16x4096x64, .f32⟩
  | .hbm, ⟨56, _⟩ => ⟨S4x4096, .f32⟩
  | .hbm, ⟨57, _⟩ => ⟨S4x1x4096x1, .f32⟩
  | .hbm, ⟨58, _⟩ => ⟨S4x16x4096x64, .f32⟩
  | .hbm, ⟨59, _⟩ => ⟨S4x16x4096x64, .f32⟩
  | .hbm, ⟨60, _⟩ => ⟨S4x16x64x64, .f32⟩
  | .hbm, ⟨61, _⟩ => ⟨S4x16x4096x64, .f32⟩
  | .hbm, ⟨62, _⟩ => ⟨S4x4096x16x64, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  reducesTo_S4x16x4096x64_S4x16x4096_d3 : S4x16x4096x64.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x4096x64_S4x16x64_d2 : S4x16x4096x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x4096x64_0_1_2_3 : S4x16x1x64.BroadcastsInDim S4x16x4096x64 (![0, 1, 2, 3] : Fin 4 → Fin S4x16x4096x64.rank)
  bcast_S4x4096_S4x1x4096x1_0_2 : S4x4096.BroadcastsInDim S4x1x4096x1 (![0, 2] : Fin 2 → Fin S4x1x4096x1.rank)
  bcast_S4x1x4096x1_S4x16x4096x64_0_1_2_3 : S4x1x4096x1.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.Payloads.lean ====
/-
  The arithmetic of the two kernel bodies, read at an index over the extended reals.

  The dense body computes, for a block X of 1024 rows, the weights W (already transposed: [in, out]) and the bias row B,
    Y[p, q] = (Σ_k X[p, k] · W[k, q]) + B[0, q];
  the changes of float format around the product are the identity on extended reals and the accumulator is the zero
  splat, so nothing else is left of it. The attention body computes, for one (batch, head) pair with Q, K, V of
  4096 rows and 64 columns,
    O[l, e] = Σ_d Q[l, d] · (Σ_l' K[l', d] · V[l', e]):
  the transposed K against V into a zero accumulator, then Q against that 64 by 64 product.
-/
import proofs.«135636_j71176198029846_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ### The dot record `dot_S1024x1024_S1024x1024_S1024x1024_1_0_0_1_n_n`: an [1024,1024] by [1024,1024] product contracting the one shared axis -/

theorem lin_l0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lin_l1 (j : S1024x1024.Idx) (q : dot_S1024x1024_S1024x1024_S1024x1024_1_0_0_1_n_n.contr.Idx) : (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem lin_r0 (j : S1024x1024.Idx) (q : dot_S1024x1024_S1024x1024_S1024x1024_1_0_0_1_n_n.contr.Idx) : (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem lin_r1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the product at (p, q) is the sum over the shared axis of the row of the left factor times the
    column of the right one. -/
theorem lin_mm {φ₁ φ₂ : FTy} (L : FVec Ideal S1024x1024 φ₁) (R : FVec Ideal S1024x1024 φ₂) (p : Fin 1024) (q : Fin 1024) :
    matmul dot_S1024x1024_S1024x1024_S1024x1024_1_0_0_1_n_n none L R (constant S1024x1024 .f32 0x00000000#32) (ix2 p q) = ∑ k : Fin 1024, L (ix2 p k) * R (ix2 k q) := by
  show FloatOps.matmul dot_S1024x1024_S1024x1024_S1024x1024_1_0_0_1_n_n none L R (constant S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lin_l0 _ _
    | ⟨1, _⟩ => exact (lin_l1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (lin_r0 _ _).trans hk
    | ⟨1, _⟩ => exact lin_r1 _ _)
  rw [el, er]

/-! ### The dot record `dot_S64x4096_S4096x64_S64x64_1_0_0_1_n_n`: an [64,4096] by [4096,64] product contracting the one shared axis -/

theorem ktv_l0 (j : S64x64.Idx) (q : dot_S64x4096_S4096x64_S64x64_1_0_0_1_n_n.contr.Idx) : (dot_S64x4096_S4096x64_S64x64_1_0_0_1_n_n.lhsIdx j q 0).val = (j 0).val := by
  unfold DotDims.lhsIdx
  rw [dif_neg (show ¬(0 : Fin S64x4096.rank) ∈ dot_S64x4096_S4096x64_S64x64_1_0_0_1_n_n.lhsBatch by decide), dif_pos (show (0 : Fin S64x4096.rank) ∈ dot_S64x4096_S4096x64_S64x64_1_0_0_1_n_n.lhsNonContracting by decide)]
  rfl
theorem ktv_l1 (j : S64x64.Idx) (q : dot_S64x4096_S4096x64_S64x64_1_0_0_1_n_n.contr.Idx) : (dot_S64x4096_S4096x64_S64x64_1_0_0_1_n_n.lhsIdx j q 1).val = (q ⟨0, by decide⟩).val :=
  dot_S64x4096_S4096x64_S64x64_1_0_0_1_n_n.lhsIdx_val_of_single rfl j q
theorem ktv_r0 (j : S64x64.Idx) (q : dot_S64x4096_S4096x64_S64x64_1_0_0_1_n_n.contr.Idx) : (dot_S64x4096_S4096x64_S64x64_1_0_0_1_n_n.rhsIdx j q 0).val = (q ⟨0, by decide⟩).val :=
  dot_S64x4096_S4096x64_S64x64_1_0_0_1_n_n.rhsIdx_val_of_single rfl j q
theorem ktv_r1 (j : S64x64.Idx) (q : dot_S64x4096_S4096x64_S64x64_1_0_0_1_n_n.contr.Idx) : (dot_S64x4096_S4096x64_S64x64_1_0_0_1_n_n.rhsIdx j q 1).val = (j 1).val := by
  unfold DotDims.rhsIdx
  rw [dif_neg (show ¬(1 : Fin S4096x64.rank) ∈ dot_S64x4096_S4096x64_S64x64_1_0_0_1_n_n.rhsBatch by decide), dif_pos (show (1 : Fin S4096x64.rank) ∈ dot_S64x4096_S4096x64_S64x64_1_0_0_1_n_n.rhsNonContracting by decide)]
  rfl

/-- Into a zero accumulator the product at (p, q) is the sum over the shared axis of the row of the left factor times the
    column of the right one. -/
theorem ktv_mm {φ₁ φ₂ : FTy} (L : FVec Ideal S64x4096 φ₁) (R : FVec Ideal S4096x64 φ₂) (p : Fin 64) (q : Fin 64) :
    matmul dot_S64x4096_S4096x64_S64x64_1_0_0_1_n_n none L R (constant S64x64 .f32 0x00000000#32) (ix2 p q) = ∑ k : Fin 4096, L (ix2 p k) * R (ix2 k q) := by
  show FloatOps.matmul dot_S64x4096_S4096x64_S64x64_1_0_0_1_n_n none L R (constant S64x64 .f32 0x00000000#32) (ix2 p q) = _
  rw [Ideal.matmul_constant_zero_apply, ← Equiv.sum_comp (contrEquiv1 dot_S64x4096_S4096x64_S64x64_1_0_0_1_n_n 4096 rfl rfl).symm]
  refine Finset.sum_congr rfl fun k _ => ?_
  have hk := contrEquiv1_symm_val dot_S64x4096_S4096x64_S64x64_1_0_0_1_n_n 4096 rfl rfl k
  have el : dot_S64x4096_S4096x64_S64x64_1_0_0_1_n_n.lhsIdx (ix2 p q) ((contrEquiv1 dot_S64x4096_S4096x64_S64x64_1_0_0_1_n_n 4096 rfl rfl).symm k) = ix2 p k := funext fun a => Fin.ext (by
    match a with
    | ⟨0, _⟩ => exact ktv_l0 _ _
    | ⟨1, _⟩ => exact (ktv_l1 _ _).trans hk)
  have er : dot_S64x4096_S4096x64_S64x64_1_0_0_1_n_n.rhsIdx (ix2 p q) ((contrEquiv1 dot_S64x4096_S4096x64_S64x64_1_0_0_1_n_n 4096 rfl rfl).symm k) = ix2 k q := funext fun a => Fin.ext (by
    match a with
    | ⟨0, _⟩ => exact (ktv_r0 _ _).trans hk
    | ⟨1, _⟩ => exact ktv_r1 _ _)
  rw [el, er]

/-! ### The dot record `dot_S4096x64_S64x64_S4096x64_1_0_0_1_n_n`: an [4096,64] by [64,64] product contracting the one shared axis -/

theorem qkv_l0 (j : S4096x64.Idx) (q : dot_S4096x64_S64x64_S4096x64_1_0_0_1_n_n.contr.Idx) : (dot_S4096x64_S64x64_S4096x64_1_0_0_1_n_n.lhsIdx j q 0).val = (j 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem qkv_l1 (j : S4096x64.Idx) (q : dot_S4096x64_S64x64_S4096x64_1_0_0_1_n_n.contr.Idx) : (dot_S4096x64_S64x64_S4096x64_1_0_0_1_n_n.lhsIdx j q 1).val = (q ⟨0, by decide⟩).val :=
  dot_S4096x64_S64x64_S4096x64_1_0_0_1_n_n.lhsIdx_val_of_single rfl j q
theorem qkv_r0 (j : S4096x64.Idx) (q : dot_S4096x64_S64x64_S4096x64_1_0_0_1_n_n.contr.Idx) : (dot_S4096x64_S64x64_S4096x64_1_0_0_1_n_n.rhsIdx j q 0).val = (q ⟨0, by decide⟩).val :=
  dot_S4096x64_S64x64_S4096x64_1_0_0_1_n_n.rhsIdx_val_of_single rfl j q
theorem qkv_r1 (j : S4096x64.Idx) (q : dot_S4096x64_S64x64_S4096x64_1_0_0_1_n_n.contr.Idx) : (dot_S4096x64_S64x64_S4096x64_1_0_0_1_n_n.rhsIdx j q 1).val = (j 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Into a zero accumulator the product at (p, q) is the sum over the shared axis of the row of the left factor times the
    column of the right one. -/
theorem qkv_mm {φ₁ φ₂ : FTy} (L : FVec Ideal S4096x64 φ₁) (R : FVec Ideal S64x64 φ₂) (p : Fin 4096) (q : Fin 64) :
    matmul dot_S4096x64_S64x64_S4096x64_1_0_0_1_n_n none L R (constant S4096x64 .f32 0x00000000#32) (ix2 p q) = ∑ k : Fin 64, L (ix2 p k) * R (ix2 k q) := by
  show FloatOps.matmul dot_S4096x64_S64x64_S4096x64_1_0_0_1_n_n none L R (constant S4096x64 .f32 0x00000000#32) (ix2 p q) = _
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact qkv_l0 _ _
    | ⟨1, _⟩ => exact (qkv_l1 _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (qkv_r0 _ _).trans hk
    | ⟨1, _⟩ => exact qkv_r1 _ _)
  rw [el, er]

/-! ## The dense body -/

/-- The dense body's stored value at (p, q): the row of the block against the column of the weights, plus the bias. -/
theorem lin_pay (x0 x1 : Vec Ideal S1024x1024 .f32) (x2 : Vec Ideal S1x1024 .f32) (p q : Fin 1024) :
    k0_pay1 (F := Ideal) x0 x1 x2 (ix2 p q) = (∑ k : Fin 1024, x0 (ix2 p k) * x1 (ix2 k q)) + x2 (ix2 0 q) := by
  unfold k0_pay1
  rw [shapeCast_self, shapeCast_self, shapeCast_self]
  refine (addf_apply _ _ _).trans ?_
  refine congrArg₂ (· + ·) ?_ ?_
  · exact lin_mm _ _ p q
  · exact broadcastTo_apply x2 _ (ix2 p q) (ix2 0 q) (fun a => by
      match a with
      | ⟨0, _⟩ => rfl
      | ⟨1, _⟩ => rfl)

/-- The three other dense calls run the same body. -/
theorem k1_pay1_eq : @k1_pay1 Ideal _ = @k0_pay1 Ideal _ := rfl
theorem k2_pay1_eq : @k2_pay1 Ideal _ = @k0_pay1 Ideal _ := rfl
theorem k4_pay1_eq : @k4_pay1 Ideal _ = @k0_pay1 Ideal _ := rfl

/-! ## The attention body -/

/-- A [1, 1, 4096, 64] block viewed as [4096, 64]: the two unit axes dropped. -/
theorem squeeze_apply (v : Vec Ideal S1x1x4096x64 .f32) (l : Fin 4096) (d : Fin 64) :
    shapeCast S4096x64 v shapeCasts_S1x1x4096x64_S4096x64 (ix2 l d) = v (ix4 0 0 l d) :=
  shapeCast_apply v _ (ix2 l d) (ix4 0 0 l d) (by
    rw [Shape.rowMajor_val_four, Shape.rowMajor_val_two]
    show ((0 * 1 + 0) * 4096 + l.val) * 64 + d.val = l.val * 64 + d.val
    omega)

/-- The attention body's stored value at row l, column e of the (batch, head) block. -/
theorem attn_pay (v0 v3 v6 : Vec Ideal S1x1x4096x64 .f32) (l : Fin 4096) (e : Fin 64) :
    k3_pay1 (F := Ideal) v0 v3 v6 (ix4 0 0 l e)
      = ∑ d : Fin 64, v0 (ix4 0 0 l d) * (∑ l' : Fin 4096, v3 (ix4 0 0 l' d) * v6 (ix4 0 0 l' e)) := by
  unfold k3_pay1
  refine (shapeCast_apply _ _ (ix4 0 0 l e) (ix2 l e) (by
    rw [Shape.rowMajor_val_four, Shape.rowMajor_val_two]
    show l.val * 64 + e.val = ((0 * 1 + 0) * 4096 + l.val) * 64 + e.val
    omega)).trans ?_
  refine (qkv_mm _ _ l e).trans ?_
  refine Finset.sum_congr rfl fun d _ => ?_
  refine congrArg₂ (· * ·) (squeeze_apply v0 l d) ?_
  refine (ktv_mm _ _ d e).trans ?_
  refine Finset.sum_congr rfl fun l' _ => ?_
  refine congrArg₂ (· * ·) ?_ (squeeze_apply v6 l' e)
  refine (transpose_apply _ _ _ (ix2 d l') (ix2 l' d) (fun b => by
    match b with
    | ⟨0, _⟩ => rfl
    | ⟨1, _⟩ => rfl)).trans ?_
  exact squeeze_apply v3 l' d

/-! ## The same at a general block index, and the whole-array functions the blocks are restrictions of -/

/-- The dense body's stored value at any index of its 1024 by 1024 block. -/
theorem lin_pay_at (x0 x1 : Vec Ideal S1024x1024 .f32) (x2 : Vec Ideal S1x1024 .f32) (j : S1024x1024.Idx) :
    k0_pay1 (F := Ideal) x0 x1 x2 j = (∑ k : Fin 1024, x0 (ix2 (j 0) k) * x1 (ix2 k (j 1))) + x2 (ix2 0 (j 1)) :=
  (congrArg (k0_pay1 (F := Ideal) x0 x1 x2) (eq_ix2 j)).trans (lin_pay x0 x1 x2 (j 0) (j 1))

/-- The attention body's stored value at any index of its [1, 1, 4096, 64] block: the two leading coordinates are 0. -/
theorem attn_pay_at (v0 v3 v6 : Vec Ideal S1x1x4096x64 .f32) (j : S1x1x4096x64.Idx) :
    k3_pay1 (F := Ideal) v0 v3 v6 j
      = ∑ d : Fin 64, v0 (ix4 0 0 (j 2) d) * (∑ l' : Fin 4096, v3 (ix4 0 0 l' d) * v6 (ix4 0 0 l' (j 3))) := by
  have h0 : (j 0).val = 0 := by have h : (j 0).val < 1 := (j 0).isLt; omega
  have h1 : (j 1).val = 0 := by have h : (j 1).val < 1 := (j 1).isLt; omega
  have hj : j = ix4 0 0 (j 2) (j 3) := by
    funext a; apply Fin.ext
    match a with
    | ⟨0, _⟩ => exact h0
    | ⟨1, _⟩ => exact h1
    | ⟨2, _⟩ => rfl
    | ⟨3, _⟩ => rfl
  exact (congrArg (k3_pay1 (F := Ideal) v0 v3 v6) hj).trans (attn_pay v0 v3 v6 (j 2) (j 3))

/-- The dense layer on the whole [16384, 1024] array: row r of X against column n of W, plus the bias at n. Every grid
    point's output block is the restriction of this one function to its 1024 rows. -/
def linG (X : S16384x1024.Idx → EReal) (W : S1024x1024.Idx → EReal) (B : S1x1024.Idx → EReal) : S16384x1024.Idx → EReal :=
  fun i => (∑ k : Fin 1024, X (ix2 (i 0) k) * W (ix2 k (i 1))) + B (ix2 0 (i 1))

/-- The attention core on the whole [4, 16, 4096, 64] arrays: within the (batch, head) pair of the index, row l of Q
    against the 64 by 64 product of K transposed with V. Every grid point's output block is the restriction of this one
    function to its (batch, head) pair. -/
def attnG (Q K Vv : S4x16x4096x64.Idx → EReal) : S4x16x4096x64.Idx → EReal :=
  fun i => ∑ d : Fin 64, Q (ix4 (i 0) (i 1) (i 2) d) * (∑ l' : Fin 4096, K (ix4 (i 0) (i 1) l' d) * Vv (ix4 (i 0) (i 1) l' (i 3)))

/-- The dense layer at row r, column n. -/
theorem linG_apply (X : S16384x1024.Idx → EReal) (W : S1024x1024.Idx → EReal) (B : S1x1024.Idx → EReal) (r : Fin 16384) (n : Fin 1024) :
    linG X W B (ix2 r n) = (∑ k : Fin 1024, X (ix2 r k) * W (ix2 k n)) + B (ix2 0 n) := rfl

/-- The attention core at batch b, head h, row l, column e. -/
theorem attnG_apply (Q K Vv : S4x16x4096x64.Idx → EReal) (b : Fin 4) (h : Fin 16) (l : Fin 4096) (e : Fin 64) :
    attnG Q K Vv (ix4 b h l e) = ∑ d : Fin 64, Q (ix4 b h l d) * (∑ l' : Fin 4096, K (ix4 b h l' d) * Vv (ix4 b h l' e)) := rfl

end Cert.KernelIdeal.Payloads

end
-- ==== Proof.Region0.lean ====
/-
  The dense call number 0 on the whole array. Its grid has 16 points; point t stages rows 1024 t … 1024 t + 1023 of the
  [16384, 1024] operand, the whole [1024, 1024] weights and the whole [1, 1024] bias at every point, and writes rows
  1024 t … 1024 t + 1023 of the result back. The body's value on a block is the restriction of ONE function of the three
  arrays (Payloads.linG: row r against column n, plus the bias at n), the 16 blocks tile the rows, so after the call the
  result array is that function of the arrays as the call found them.
-/
import proofs.«135636_j71176198029846_1_alg».proof.Proof.Gen.KernelIdeal.Frame
import proofs.«135636_j71176198029846_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's and the result's block row is the point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt16 (t : Fin cfg0.N) : t.val < 16 := by
  have h : t.val < cfg0.N := t.isLt
  have e : cfg0.N = 16 := N_0
  omega

/-- Row p of point t's block is row 1024 t + p of the array. -/
def row (t : Fin cfg0.N) (p : Fin 1024) : Fin 16384 :=
  ⟨t.val * 1024 + p.val, by have := lt16 t; have := p.isLt; omega⟩

/-- The operand's block at point t, read at y: the array at row 1024 t + y₀. -/
theorem read_x (c : Dev nD) (t : Fin cfg0.N) (y : S1024x1024.Idx) :
    iblk0 V c 0 t y = V c main_v0 (ix2 (row t (y 0)) (y 1)) := by
  obtain ⟨e0, e1, -⟩ := idx_facts t
  show V c main_v0 (((cfg0.win 0).blk t).view.emb y) = V c main_v0 _
  refine congrArg (V c main_v0) (funext fun a => Fin.ext ?_)
  match a with
  | ⟨0, _⟩ => show win0_0.index t (0 : Fin 2) * 1024 + 1 * (y 0).val = t.val * 1024 + (y 0).val; omega
  | ⟨1, _⟩ => show win0_0.index t (1 : Fin 2) * 1024 + 1 * (y 1).val = (y 1).val; omega

/-- The weights' block at any point is the whole array. -/
theorem read_w (c : Dev nD) (t : Fin cfg0.N) (y : S1024x1024.Idx) :
    iblk0 V c 1 t y = V c main_v1 y := by
  obtain ⟨-, -, e2, e3, -⟩ := idx_facts t
  show V c main_v1 (((cfg0.win 1).blk t).view.emb y) = V c main_v1 y
  refine congrArg (V c main_v1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias row's block at any point is the whole array. -/
theorem read_b (c : Dev nD) (t : Fin cfg0.N) (y : S1x1024.Idx) :
    iblk0 V c 2 t y = V c main_v2 y := by
  obtain ⟨-, -, -, -, e4, e5, -⟩ := idx_facts t
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The body's value on point t's blocks, at an index j of the block: the dense layer of the three arrays at row 1024 t + j₀,
    column j₁. -/
theorem flushed_at (c : Dev nD) (t : Fin cfg0.N) (j : S1024x1024.Idx) :
    k0_pay1 (F := Ideal) (iblk0 V c 0 t) (iblk0 V c 1 t) (iblk0 V c 2 t) j
      = linG (V c main_v0) (V c main_v1) (V c main_v2) (ix2 (row t (j 0)) (j 1)) := by
  refine ((lin_pay_at _ _ _ j).trans ?_).trans (linG_apply (V c main_v0) (V c main_v1) (V c main_v2) (row t (j 0)) (j 1)).symm
  refine congrArg₂ (· + ·) (Finset.sum_congr rfl fun k _ => ?_) ?_
  · exact congrArg₂ (· * ·) (read_x V c t (ix2 (j 0) k)) (read_w V c t (ix2 k (j 1)))
  · exact read_b V c t (ix2 0 (j 1))

/-- What point t writes back is block t of the dense layer of the three arrays. -/
theorem flushed_eq (c : Dev nD) (t : Fin cfg0.N) :
    (dat0 V c).flushed 3 t = ((cfg0.win 3).blk t).view.read (Elt Ideal) (linG (V c main_v0) (V c main_v1) (V c main_v2)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  obtain ⟨-, -, -, -, -, -, e6, e7⟩ := idx_facts t
  funext j
  show k0_pay1 (F := Ideal) (iblk0 V c 0 t) (iblk0 V c 1 t) (iblk0 V c 2 t) j
    = linG (V c main_v0) (V c main_v1) (V c main_v2) (((cfg0.win 3).blk t).view.emb j)
  have hemb : ((cfg0.win 3).blk t).view.emb j = ix2 (row t (j 0)) (j 1) := by
    funext a; apply Fin.ext
    match a with
    | ⟨0, _⟩ => show win0_3.index t (0 : Fin 2) * 1024 + 1 * (j 0).val = t.val * 1024 + (j 0).val; omega
    | ⟨1, _⟩ => show win0_3.index t (1 : Fin 2) * 1024 + 1 * (j 1).val = (j 1).val; omega
  rw [hemb]
  exact flushed_at V c t j

/-- An index of the result array is in point t's block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row r of the result lies in the block of point r / 1024. -/
theorem cover (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hlt : (i 0).val / 1024 < cfg0.N := by have e : cfg0.N = 16 := N_0; omega
  obtain ⟨-, -, -, -, -, -, e6, e7⟩ := idx_facts ⟨(i 0).val / 1024, hlt⟩
  have e6' : win0_3.index ⟨(i 0).val / 1024, hlt⟩ (0 : Fin 2) = (i 0).val / 1024 := e6
  refine ⟨⟨(i 0).val / 1024, hlt⟩, flush0_3 _, ?_⟩
  rw [mem_blk]
  intro a
  match a with
  | ⟨0, _⟩ => show win0_3.index ⟨(i 0).val / 1024, hlt⟩ (0 : Fin 2) * 1024 ≤ (i 0).val ∧ (i 0).val < win0_3.index ⟨(i 0).val / 1024, hlt⟩ (0 : Fin 2) * 1024 + 1024; omega
  | ⟨1, _⟩ => show win0_3.index ⟨(i 0).val / 1024, hlt⟩ (1 : Fin 2) * 1024 ≤ (i 1).val ∧ (i 1).val < win0_3.index ⟨(i 0).val / 1024, hlt⟩ (1 : Fin 2) * 1024 + 1024; omega

/-- After the call its result array is the dense layer of its three arrays as the call found them. -/
theorem final (c : Dev nD) : (dat0 V c).arrAt 3 cfg0.N = linG (V c main_v0) (V c main_v1) (V c main_v2) :=
  (dat0 V c).arrAt_eq_of_cover 3 _ (fun t _ => flushed_eq V c t) cover

end Cert.KernelIdeal.Region0

end
-- ==== Proof.Region1.lean ====
/-
  The dense call number 1 on the whole array. Its grid has 16 points; point t stages rows 1024 t … 1024 t + 1023 of the
  [16384, 1024] operand, the whole [1024, 1024] weights and the whole [1, 1024] bias at every point, and writes rows
  1024 t … 1024 t + 1023 of the result back. The body's value on a block is the restriction of ONE function of the three
  arrays (Payloads.linG: row r against column n, plus the bias at n), the 16 blocks tile the rows, so after the call the
  result array is that function of the arrays as the call found them.
-/
import proofs.«135636_j71176198029846_1_alg».proof.Proof.Gen.KernelIdeal.Frame
import proofs.«135636_j71176198029846_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's and the result's block row is the point, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt16 (t : Fin cfg1.N) : t.val < 16 := by
  have h : t.val < cfg1.N := t.isLt
  have e : cfg1.N = 16 := N_1
  omega

/-- Row p of point t's block is row 1024 t + p of the array. -/
def row (t : Fin cfg1.N) (p : Fin 1024) : Fin 16384 :=
  ⟨t.val * 1024 + p.val, by have := lt16 t; have := p.isLt; omega⟩

/-- The operand's block at point t, read at y: the array at row 1024 t + y₀. -/
theorem read_x (c : Dev nD) (t : Fin cfg1.N) (y : S1024x1024.Idx) :
    iblk1 V c 0 t y = V c main_v0 (ix2 (row t (y 0)) (y 1)) := by
  obtain ⟨e0, e1, -⟩ := idx_facts t
  show V c main_v0 (((cfg1.win 0).blk t).view.emb y) = V c main_v0 _
  refine congrArg (V c main_v0) (funext fun a => Fin.ext ?_)
  match a with
  | ⟨0, _⟩ => show win1_0.index t (0 : Fin 2) * 1024 + 1 * (y 0).val = t.val * 1024 + (y 0).val; omega
  | ⟨1, _⟩ => show win1_0.index t (1 : Fin 2) * 1024 + 1 * (y 1).val = (y 1).val; omega

/-- The weights' block at any point is the whole array. -/
theorem read_w (c : Dev nD) (t : Fin cfg1.N) (y : S1024x1024.Idx) :
    iblk1 V c 1 t y = V c main_v4 y := by
  obtain ⟨-, -, e2, e3, -⟩ := idx_facts t
  show V c main_v4 (((cfg1.win 1).blk t).view.emb y) = V c main_v4 y
  refine congrArg (V c main_v4) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias row's block at any point is the whole array. -/
theorem read_b (c : Dev nD) (t : Fin cfg1.N) (y : S1x1024.Idx) :
    iblk1 V c 2 t y = V c main_v5 y := by
  obtain ⟨-, -, -, -, e4, e5, -⟩ := idx_facts t
  show V c main_v5 (((cfg1.win 2).blk t).view.emb y) = V c main_v5 y
  refine congrArg (V c main_v5) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- The body's value on point t's blocks, at an index j of the block: the dense layer of the three arrays at row 1024 t + j₀,
    column j₁. -/
theorem flushed_at (c : Dev nD) (t : Fin cfg1.N) (j : S1024x1024.Idx) :
    k0_pay1 (F := Ideal) (iblk1 V c 0 t) (iblk1 V c 1 t) (iblk1 V c 2 t) j
      = linG (V c main_v0) (V c main_v4) (V c main_v5) (ix2 (row t (j 0)) (j 1)) := by
  refine ((lin_pay_at _ _ _ j).trans ?_).trans (linG_apply (V c main_v0) (V c main_v4) (V c main_v5) (row t (j 0)) (j 1)).symm
  refine congrArg₂ (· + ·) (Finset.sum_congr rfl fun k _ => ?_) ?_
  · exact congrArg₂ (· * ·) (read_x V c t (ix2 (j 0) k)) (read_w V c t (ix2 k (j 1)))
  · exact read_b V c t (ix2 0 (j 1))

/-- What point t writes back is block t of the dense layer of the three arrays. -/
theorem flushed_eq (c : Dev nD) (t : Fin cfg1.N) :
    (dat1 V c).flushed 3 t = ((cfg1.win 3).blk t).view.read (Elt Ideal) (linG (V c main_v0) (V c main_v4) (V c main_v5)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  obtain ⟨-, -, -, -, -, -, e6, e7⟩ := idx_facts t
  funext j
  show k0_pay1 (F := Ideal) (iblk1 V c 0 t) (iblk1 V c 1 t) (iblk1 V c 2 t) j
    = linG (V c main_v0) (V c main_v4) (V c main_v5) (((cfg1.win 3).blk t).view.emb j)
  have hemb : ((cfg1.win 3).blk t).view.emb j = ix2 (row t (j 0)) (j 1) := by
    funext a; apply Fin.ext
    match a with
    | ⟨0, _⟩ => show win1_3.index t (0 : Fin 2) * 1024 + 1 * (j 0).val = t.val * 1024 + (j 0).val; omega
    | ⟨1, _⟩ => show win1_3.index t (1 : Fin 2) * 1024 + 1 * (j 1).val = (j 1).val; omega
  rw [hemb]
  exact flushed_at V c t j

/-- An index of the result array is in point t's block iff each coordinate is in the block's range on its axis. -/
theorem mem_blk (t : Fin cfg1.N) (i : S16384x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v6).slice (win1_3.rect t)).set ↔ _
  rw [View.set_slice_whole, Rect.mem_set_unit]
  exact Iff.rfl

/-- Row r of the result lies in the block of point r / 1024. -/
theorem cover (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  have hlt : (i 0).val / 1024 < cfg1.N := by have e : cfg1.N = 16 := N_1; omega
  obtain ⟨-, -, -, -, -, -, e6, e7⟩ := idx_facts ⟨(i 0).val / 1024, hlt⟩
  have e6' : win1_3.index ⟨(i 0).val / 1024, hlt⟩ (0 : Fin 2) = (i 0).val / 1024 := e6
  refine ⟨⟨(i 0).val / 1024, hlt⟩, flush1_3 _, ?_⟩
  rw [mem_blk]
  intro a
  match a with
  | ⟨0, _⟩ => show win1_3.index ⟨(i 0).val / 1024, hlt⟩ (0 : Fin 2) * 1024 ≤ (i 0).val ∧ (i 0).val < win1_3.index ⟨(i 0).val / 1024, hlt⟩ (0 : Fin 2) * 1024 + 1024; omega
  | ⟨1, _⟩ => show win1_3.index ⟨(i 0).val / 1024, hlt⟩ (1 : Fin 2) * 1024 ≤ (i 1).val ∧ (i 1).val < win1_3.index ⟨(i 0).val / 1024, hlt⟩ (1 : Fin 2) * 1024 + 1024; omega

/-- After the call its result array is the dense layer of its three arrays as the call found them. -/
theorem final (c : Dev nD) : (dat1 V c).arrAt 3 cfg1.N = linG (V c main_v0) (V c main_v4) (V c main_v5) :=
  (dat1 V c).arrAt_eq_of_cover 3 _ (fun t _ => flushed_eq V c t) cover

end Cert.KernelIdeal.Region1

end
-- ==== Proof.Region2.lean ====
/-
  The dense call number 2 on the whole array. Its grid has 16 points; point t stages rows 1024 t … 1024 t + 1023 of the
  [16384, 1024] operand, the whole [1024, 1024] weights and the whole [1, 1024] bias at every point, and writes rows
  1024 t … 1024 t + 1023 of the result back. The body's value on a block is the restriction of ONE function of the three
  arrays (Payloads.linG: row r against column n, plus the bias at n), the 16 blocks tile the rows, so after the call the
  result array is that function of the arrays as the call found them.
-/
import proofs.«135636_j71176198029846_1_alg».proof.Proof.Gen.KernelIdeal.Frame
import proofs.«135636_j71176198029846_1_alg».proof.Proof.Payloads
import Idealize.ShloMosaic.Lib.Pipeline.Value

set_option maxRecDepth 16384

noncomputable section

namespace Cert.KernelIdeal.Region2

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's and the result's block row is the point, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt16 (t : Fin cfg2.N) : t.val < 16 := by
  have h : t.val < cfg2.N := t.isLt
  have e : cfg2.N = 16 := N_2
  omega

/-- Row p of point t's block is row 1024 t + p of the array. -/
def row (t : Fin cfg2.N) (p : Fin 1024) : Fin 16384 :=
  ⟨t.val * 1024 + p.val, by have := lt16 t; have := p.isLt; omega⟩

/-- The operand's block at point t, read at y: the array at row 1024 t + y₀. -/
theorem read_x (c : Dev nD) (t : Fin cfg2.N) (y : S1024x1024.Idx) :
    iblk2 V c 0 t y = V c main_v0 (ix2 (row t (y 0)) (y 1)) := by
  obtain ⟨e0, e1, -⟩ := idx_facts t
  show V c main_v0 (((cfg2.win 0).blk t).view.emb y) = V c main_v0 _
  refine congrArg (V c main_v0) (funext fun a => Fin.ext ?_)
  match a with
  | ⟨0, _⟩ => show win2_0.index t (0 : Fin 2) * 1024 + 1 * (y 0).val = t.val * 1024 + (y 0).val; omega
  | ⟨1, _⟩ => show win2_0.index t (1 : Fin 2) * 1024 + 1 * (y 1).val = (y 1).val; omega

/-- The weights' block at any point is the whole array. -/
theorem read_w (c : Dev nD) (t : Fin cfg2.N) (y : S1024x1024.Idx) :
    iblk2 V c 1 t y = V c main_v7 y := by
  obtain ⟨-, -, e2, e3, -⟩ := idx_facts t
  show V c main_v7 (((cfg2.win 1).blk t).view.emb y) = V c main_v7 y
  refine congrArg (V c main_v7) (funext fun a => Fin.ext ?_)
  match a with
  | ⟨0, _⟩ => show win2_1.index t (0 : Fin 2) * 1024 + 1 * (y 0).val = (y 0).val; omega
  | ⟨1, _⟩ => show win2_1.index t (1 : Fin 2) * 1024 + 1 * (y 1).val = (y 1).val; omega

/-- The bias row's block at any point is the whole array. -/
theorem read_b (c : Dev nD) (t : Fin cfg2.N) (y : S1x1024.Idx) :
    iblk2 V c 2 t y = V c main_v8 y := by
  obtain ⟨-, -, -, -, e4, e5, -⟩ := idx_facts t
  show V c main_v8 (((cfg2.win 2).blk t).view.emb y) = V c main_v8 y
  refine congrArg (V c main_v8) (funext fun a => Fin.ext ?_)
  match a with
  | ⟨0, _⟩ => show win2_2.index t (0 : Fin 2) * 1 + 1 * (y 0).val = (y 0).val; omega
  | ⟨1, _⟩ => show win2_2.index t (1 : Fin 2) * 1024 + 1 * (y 1).val = (y 1).val; omega

/-- The body's value on point t's blocks, at an index j of the block: the dense layer of the three arrays at row 1024 t + j₀,
    column j₁. -/
theorem flushed_at (c : Dev nD) (t : Fin cfg2.N) (j : S1024x1024.Idx) :
    k0_pay1 (F := Ideal) (iblk2 V c 0 t) (iblk2 V c 1 t) (iblk2 V c 2 t) j
      = linG (V c main_v0) (V c main_v7) (V c main_v8) (ix2 (row t (j 0)) (j 1)) := by
  refine ((lin_pay_at _ _ _ j).trans ?_).trans (linG_apply (V c main_v0) (V c main_v7) (V c main_v8) (row t (j 0)) (j 1)).symm
  refine congrArg₂ (· + ·) (Finset.sum_congr rfl fun k _ => ?_) ?_
  · exact congrArg₂ (· * ·) (read_x V c t (ix2 (j 0) k)) (read_w V c t (ix2 k (j 1)))
  · exact read_b V c t (ix2 0 (j 1))

/-- What point t writes back is block t of the dense layer of the three arrays. -/
theorem flushed_eq (c : Dev nD) (t : Fin cfg2.N) :
    (dat2 V c).flushed 3 t = ((cfg2.win 3).blk t).view.read (Elt Ideal) (linG (V c main_v0) (V c main_v7) (V c main_v8)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  obtain ⟨-, -, -, -, -, -, e6, e7⟩ := idx_facts t
  funext j
  show k0_pay1 (F := Ideal) (iblk2 V c 0 t) (iblk2 V c 1 t) (iblk2 V c 2 t) j
    = linG (V c main_v0) (V c main_v7) (V c main_v8) (((cfg2.win 3).blk t).view.emb j)
  have hemb : ((cfg2.win 3).blk t).view.emb j = ix2 (row t (j 0)) (j 1) := by
    funext a; apply Fin.ext
    match a with
    | ⟨0, _⟩ => show win2_3.index t (0 : Fin 2) * 1024 + 1 * (j 0).val = t.val * 1024 + (j 0).val; omega
    | ⟨1, _⟩ => show win2_3.index t (1 : Fin 2) * 1024 + 1 * (j 1).val = (j 1).val; omega
  rw [hemb]
  exact flushed_at V c t j

/-- An index of the result array is in point t's block iff each coordinate is in the block's range on its axis. -/
theorem mem_blk (t : Fin cfg2.N) (i : S16384x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v9).slice (win2_3.rect t)).set ↔ _
  rw [View.set_slice_whole, Rect.mem_set_unit]
  exact Iff.rfl

/-- Row r of the result lies in the block of point r / 1024. -/
theorem cover (i : S16384x1024.Idx) : ∃ t : Fin cfg2.N, (cfg2.win 3).flush t = true ∧ i ∈ ((cfg2.win 3).blk t).view.set := by
  have hi0 : (i 0).val < 16384 := (i 0).isLt
  have hi1 : (i 1).val < 1024 := (i 1).isLt
  have hlt : (i 0).val / 1024 < cfg2.N := by have e : cfg2.N = 16 := N_2; omega
  obtain ⟨-, -, -, -, -, -, e6, e7⟩ := idx_facts ⟨(i 0).val / 1024, hlt⟩
  have e6' : win2_3.index ⟨(i 0).val / 1024, hlt⟩ (0 : Fin 2) = (i 0).val / 1024 := e6
  refine ⟨⟨(i 0).val / 1024, hlt⟩, flush2_3 _, ?_⟩
  rw [mem_blk]
  intro a
  match a with
  | ⟨0, _⟩ => show win2_3.index ⟨(i 0).val / 1024, hlt⟩ (0 : Fin 2) * 1024 ≤ (i 0).val ∧ (i 0).val < win2_3.index ⟨(i 0).val / 1024, hlt⟩ (0 : Fin 2) * 1024 + 1024; omega
  | ⟨1, _⟩ => show win2_3.index ⟨(i 0).val / 1024, hlt⟩ (1 : Fin 2) * 1024 ≤ (i 1).val ∧ (i 1).val < win2_3.index ⟨(i 0).val / 1024, hlt⟩ (1 : Fin 2) * 1024 + 1024; omega

/-- After the call its result array is the dense layer of its three arrays as the call found them. -/
theorem final (c : Dev nD) : (dat2 V c).arrAt 3 cfg2.N = linG (V c main_v0) (V c main_v7) (V c main_v8) :=
  (dat2 V c).arrAt_eq_of_cover 3 _ (fun t _ => flushed_eq V c t) cover

end Cert.KernelIdeal.Region2

end
-- ==== Proof.Region3.lean ====
/-
  The attention call on the whole arrays. Its grid is 4 by 16: one point per (batch, head) pair; at a point every
  window stages the [1, 1, 4096, 64] slab of that pair, and the result's slab is written back. The body's value on a slab
  is the restriction of ONE function of the three arrays (Payloads.attnG: within the pair, row l of Q against the 64 by 64
  product of K transposed with V), the 64 slabs tile the array, so after the call the result array is that function of the
  arrays as the call found them.
-/
import proofs.«135636_j71176198029846_1_alg».proof.Proof.Gen.KernelIdeal.Frame
import proofs.«135636_j71176198029846_1_alg».proof.Proof.Payloads
import Idealize.ShloMosaic.Lib.Pipeline.Value

set_option maxRecDepth 16384

noncomputable section

namespace Cert.KernelIdeal.Region3

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0, 0] : Fin 4 → Nat) = fun _ => 0 := funext fun a => by fin_cases a <;> rfl

/-- The index maps over the grid: every window's block is the result's (batch, head) pair, at offset 0 on the two long axes. -/
theorem idx_facts : ∀ t : Fin cfg3.N,
    win3_0.index t (0 : Fin 4) = win3_3.index t (0 : Fin 4) ∧ win3_0.index t (1 : Fin 4) = win3_3.index t (1 : Fin 4)
    ∧ win3_0.index t (2 : Fin 4) = 0 ∧ win3_0.index t (3 : Fin 4) = 0
    ∧ win3_1.index t (0 : Fin 4) = win3_3.index t (0 : Fin 4) ∧ win3_1.index t (1 : Fin 4) = win3_3.index t (1 : Fin 4)
    ∧ win3_1.index t (2 : Fin 4) = 0 ∧ win3_1.index t (3 : Fin 4) = 0
    ∧ win3_2.index t (0 : Fin 4) = win3_3.index t (0 : Fin 4) ∧ win3_2.index t (1 : Fin 4) = win3_3.index t (1 : Fin 4)
    ∧ win3_2.index t (2 : Fin 4) = 0 ∧ win3_2.index t (3 : Fin 4) = 0
    ∧ win3_3.index t (2 : Fin 4) = 0 ∧ win3_3.index t (3 : Fin 4) = 0
    ∧ win3_3.index t (0 : Fin 4) < 4 ∧ win3_3.index t (1 : Fin 4) < 16 :=
  (by decide +kernel : ∀ t : Fin grid3.N, _)

/-- Every (batch, head) pair is some point's. -/
theorem idx_onto : ∀ (q0 : Fin 4) (q1 : Fin 16), ∃ t : Fin cfg3.N,
    win3_3.index t (0 : Fin 4) = q0.val ∧ win3_3.index t (1 : Fin 4) = q1.val :=
  (by decide +kernel : ∀ (q0 : Fin 4) (q1 : Fin 16), ∃ t : Fin grid3.N, _)

/-- The batch and the head of point t. -/
def bOf (t : Fin cfg3.N) : Fin 4 := ⟨win3_3.index t (0 : Fin 4), (idx_facts t).2.2.2.2.2.2.2.2.2.2.2.2.2.2.1⟩
def hOf (t : Fin cfg3.N) : Fin 16 := ⟨win3_3.index t (1 : Fin 4), (idx_facts t).2.2.2.2.2.2.2.2.2.2.2.2.2.2.2⟩

/-- Q's slab at point t, read at y: the array at the point's pair, row y₂, column y₃. -/
theorem read_q (c : Dev nD) (t : Fin cfg3.N) (y : S1x1x4096x64.Idx) :
    iblk3 V c 0 t y = V c main_v26 (ix4 (bOf t) (hOf t) (y 2) (y 3)) := by
  obtain ⟨e0, e1, e2, e3, -⟩ := idx_facts t
  have y0 : (y 0).val < 1 := (y 0).isLt
  have y1 : (y 1).val < 1 := (y 1).isLt
  show V c main_v26 (((cfg3.win 0).blk t).view.emb y) = V c main_v26 _
  refine congrArg (V c main_v26) (funext fun a => Fin.ext ?_)
  match a with
  | ⟨0, _⟩ => show win3_0.index t (0 : Fin 4) * 1 + 1 * (y 0).val = win3_3.index t (0 : Fin 4); omega
  | ⟨1, _⟩ => show win3_0.index t (1 : Fin 4) * 1 + 1 * (y 1).val = win3_3.index t (1 : Fin 4); omega
  | ⟨2, _⟩ => show win3_0.index t (2 : Fin 4) * 4096 + 1 * (y 2).val = (y 2).val; omega
  | ⟨3, _⟩ => show win3_0.index t (3 : Fin 4) * 64 + 1 * (y 3).val = (y 3).val; omega

/-- K's slab at point t. -/
theorem read_k (c : Dev nD) (t : Fin cfg3.N) (y : S1x1x4096x64.Idx) :
    iblk3 V c 1 t y = V c main_v41 (ix4 (bOf t) (hOf t) (y 2) (y 3)) := by
  obtain ⟨-, -, -, -, e0, e1, e2, e3, -⟩ := idx_facts t
  have y0 : (y 0).val < 1 := (y 0).isLt
  have y1 : (y 1).val < 1 := (y 1).isLt
  show V c main_v41 (((cfg3.win 1).blk t).view.emb y) = V c main_v41 _
  refine congrArg (V c main_v41) (funext fun a => Fin.ext ?_)
  match a with
  | ⟨0, _⟩ => show win3_1.index t (0 : Fin 4) * 1 + 1 * (y 0).val = win3_3.index t (0 : Fin 4); omega
  | ⟨1, _⟩ => show win3_1.index t (1 : Fin 4) * 1 + 1 * (y 1).val = win3_3.index t (1 : Fin 4); omega
  | ⟨2, _⟩ => show win3_1.index t (2 : Fin 4) * 4096 + 1 * (y 2).val = (y 2).val; omega
  | ⟨3, _⟩ => show win3_1.index t (3 : Fin 4) * 64 + 1 * (y 3).val = (y 3).val; omega

/-- V's slab at point t. -/
theorem read_v (c : Dev nD) (t : Fin cfg3.N) (y : S1x1x4096x64.Idx) :
    iblk3 V c 2 t y = V c main_v15 (ix4 (bOf t) (hOf t) (y 2) (y 3)) := by
  obtain ⟨-, -, -, -, -, -, -, -, e0, e1, e2, e3, -⟩ := idx_facts t
  have y0 : (y 0).val < 1 := (y 0).isLt
  have y1 : (y 1).val < 1 := (y 1).isLt
  show V c main_v15 (((cfg3.win 2).blk t).view.emb y) = V c main_v15 _
  refine congrArg (V c main_v15) (funext fun a => Fin.ext ?_)
  match a with
  | ⟨0, _⟩ => show win3_2.index t (0 : Fin 4) * 1 + 1 * (y 0).val = win3_3.index t (0 : Fin 4); omega
  | ⟨1, _⟩ => show win3_2.index t (1 : Fin 4) * 1 + 1 * (y 1).val = win3_3.index t (1 : Fin 4); omega
  | ⟨2, _⟩ => show win3_2.index t (2 : Fin 4) * 4096 + 1 * (y 2).val = (y 2).val; omega
  | ⟨3, _⟩ => show win3_2.index t (3 : Fin 4) * 64 + 1 * (y 3).val = (y 3).val; omega

/-- The body's value on point t's slabs, at an index j of the slab: the attention core of the three arrays at the point's
    (batch, head) pair, row j₂, column j₃. -/
theorem flushed_at (c : Dev nD) (t : Fin cfg3.N) (j : S1x1x4096x64.Idx) :
    k3_pay1 (F := Ideal) (iblk3 V c 0 t) (iblk3 V c 1 t) (iblk3 V c 2 t) j
      = attnG (V c main_v26) (V c main_v41) (V c main_v15) (ix4 (bOf t) (hOf t) (j 2) (j 3)) := by
  refine ((attn_pay_at _ _ _ j).trans ?_).trans (attnG_apply (V c main_v26) (V c main_v41) (V c main_v15) (bOf t) (hOf t) (j 2) (j 3)).symm
  refine Finset.sum_congr rfl fun d _ => ?_
  refine congrArg₂ (· * ·) (read_q V c t (ix4 0 0 (j 2) d)) (Finset.sum_congr rfl fun l' _ => ?_)
  exact congrArg₂ (· * ·) (read_k V c t (ix4 0 0 l' d)) (read_v V c t (ix4 0 0 l' (j 3)))

/-- What point t writes back is its slab of the attention core of the three arrays. -/
theorem flushed_eq (c : Dev nD) (t : Fin cfg3.N) :
    (dat3 V c).flushed 3 t = ((cfg3.win 3).blk t).view.read (Elt Ideal) (attnG (V c main_v26) (V c main_v41) (V c main_v15)) := by
  show (cfg3.win 3).cut (grid3.coords t) ((dat3 V c).after 3 t) = _
  rw [after3_3]
  unfold out3_3
  rw [View.canon_unit_zero hz]
  simp only [View.ld_unit_zero (S := S1x1x4096x64) hz]
  obtain ⟨-, -, -, -, -, -, -, -, -, -, -, -, e2, e3, -⟩ := idx_facts t
  funext j
  show k3_pay1 (F := Ideal) (iblk3 V c 0 t) (iblk3 V c 1 t) (iblk3 V c 2 t) j
    = attnG (V c main_v26) (V c main_v41) (V c main_v15) (((cfg3.win 3).blk t).view.emb j)
  have j0 : (j 0).val < 1 := (j 0).isLt
  have j1 : (j 1).val < 1 := (j 1).isLt
  have hemb : ((cfg3.win 3).blk t).view.emb j = ix4 (bOf t) (hOf t) (j 2) (j 3) := by
    funext a; apply Fin.ext
    match a with
    | ⟨0, _⟩ => show win3_3.index t (0 : Fin 4) * 1 + 1 * (j 0).val = win3_3.index t (0 : Fin 4); omega
    | ⟨1, _⟩ => show win3_3.index t (1 : Fin 4) * 1 + 1 * (j 1).val = win3_3.index t (1 : Fin 4); omega
    | ⟨2, _⟩ => show win3_3.index t (2 : Fin 4) * 4096 + 1 * (j 2).val = (j 2).val; omega
    | ⟨3, _⟩ => show win3_3.index t (3 : Fin 4) * 64 + 1 * (j 3).val = (j 3).val; omega
  rw [hemb]
  exact flushed_at V c t j

/-- An index of the result array is in point t's slab iff each coordinate is in the slab's range on its axis. -/
theorem mem_blk (t : Fin cfg3.N) (i : S4x16x4096x64.Idx) :
    i ∈ ((cfg3.win 3).blk t).view.set ↔ ∀ a : Fin 4, win3_3.index t a * S1x1x4096x64.size a ≤ (i a).val ∧ (i a).val < win3_3.index t a * S1x1x4096x64.size a + S1x1x4096x64.size a := by
  show i ∈ ((View.whole main_v42).slice (win3_3.rect t)).set ↔ _
  rw [View.set_slice_whole, Rect.mem_set_unit]
  exact Iff.rfl

/-- An index lies in the slab of the point of its (batch, head) pair. -/
theorem cover (i : S4x16x4096x64.Idx) : ∃ t : Fin cfg3.N, (cfg3.win 3).flush t = true ∧ i ∈ ((cfg3.win 3).blk t).view.set := by
  have hi2 : (i 2).val < 4096 := (i 2).isLt
  have hi3 : (i 3).val < 64 := (i 3).isLt
  obtain ⟨t, h0, h1⟩ := idx_onto (i 0) (i 1)
  obtain ⟨-, -, -, -, -, -, -, -, -, -, -, -, e2, e3, -⟩ := idx_facts t
  refine ⟨t, flush3_3 t, ?_⟩
  rw [mem_blk]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 1 ≤ (i 1).val ∧ (i 1).val < win3_3.index t (1 : Fin 4) * 1 + 1; omega
  | ⟨2, _⟩ => show win3_3.index t (2 : Fin 4) * 4096 ≤ (i 2).val ∧ (i 2).val < win3_3.index t (2 : Fin 4) * 4096 + 4096; omega
  | ⟨3, _⟩ => show win3_3.index t (3 : Fin 4) * 64 ≤ (i 3).val ∧ (i 3).val < win3_3.index t (3 : Fin 4) * 64 + 64; omega

/-- After the call its result array is the attention core of its three arrays as the call found them. -/
theorem final (c : Dev nD) : (dat3 V c).arrAt 3 cfg3.N = attnG (V c main_v26) (V c main_v41) (V c main_v15) :=
  (dat3 V c).arrAt_eq_of_cover 3 _ (fun t _ => flushed_eq V c t) cover

end Cert.KernelIdeal.Region3

end
-- ==== Proof.Region4.lean ====
/-
  The dense call number 4 on the whole array. Its grid has 16 points; point t stages rows 1024 t … 1024 t + 1023 of the
  [16384, 1024] operand, the whole [1024, 1024] weights and the whole [1, 1024] bias at every point, and writes rows
  1024 t … 1024 t + 1023 of the result back. The body's value on a block is the restriction of ONE function of the three
  arrays (Payloads.linG: row r against column n, plus the bias at n), the 16 blocks tile the rows, so after the call the
  result array is that function of the arrays as the call found them.
-/
import proofs.«135636_j71176198029846_1_alg».proof.Proof.Gen.KernelIdeal.Frame
import proofs.«135636_j71176198029846_1_alg».proof.Proof.Payloads
import Idealize.ShloMosaic.Lib.Pipeline.Value

set_option maxRecDepth 16384

noncomputable section

namespace Cert.KernelIdeal.Region4

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's and the result's block row is the point, every other block index is 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem lt16 (t : Fin cfg4.N) : t.val < 16 := by
  have h : t.val < cfg4.N := t.isLt
  have e : cfg4.N = 16 := N_4
  omega

/-- Row p of point t's block is row 1024 t + p of the array. -/
def row (t : Fin cfg4.N) (p : Fin 1024) : Fin 16384 :=
  ⟨t.val * 1024 + p.val, by have := lt16 t; have := p.isLt; omega⟩

/-- The operand's block at point t, read at y: the array at row 1024 t + y₀. -/
theorem read_x (c : Dev nD) (t : Fin cfg4.N) (y : S1024x1024.Idx) :
    iblk4 V c 0 t y = V c main_v44 (ix2 (row t (y 0)) (y 1)) := by
  obtain ⟨e0, e1, -⟩ := idx_facts t
  show V c main_v44 (((cfg4.win 0).blk t).view.emb y) = V c main_v44 _
  refine congrArg (V c main_v44) (funext fun a => Fin.ext ?_)
  match a with
  | ⟨0, _⟩ => show win4_0.index t (0 : Fin 2) * 1024 + 1 * (y 0).val = t.val * 1024 + (y 0).val; omega
  | ⟨1, _⟩ => show win4_0.index t (1 : Fin 2) * 1024 + 1 * (y 1).val = (y 1).val; omega

/-- The weights' block at any point is the whole array. -/
theorem read_w (c : Dev nD) (t : Fin cfg4.N) (y : S1024x1024.Idx) :
    iblk4 V c 1 t y = V c main_v45 y := by
  obtain ⟨-, -, e2, e3, -⟩ := idx_facts t
  show V c main_v45 (((cfg4.win 1).blk t).view.emb y) = V c main_v45 y
  refine congrArg (V c main_v45) (funext fun a => Fin.ext ?_)
  match a with
  | ⟨0, _⟩ => show win4_1.index t (0 : Fin 2) * 1024 + 1 * (y 0).val = (y 0).val; omega
  | ⟨1, _⟩ => show win4_1.index t (1 : Fin 2) * 1024 + 1 * (y 1).val = (y 1).val; omega

/-- The bias row's block at any point is the whole array. -/
theorem read_b (c : Dev nD) (t : Fin cfg4.N) (y : S1x1024.Idx) :
    iblk4 V c 2 t y = V c main_v46 y := by
  obtain ⟨-, -, -, -, e4, e5, -⟩ := idx_facts t
  show V c main_v46 (((cfg4.win 2).blk t).view.emb y) = V c main_v46 y
  refine congrArg (V c main_v46) (funext fun a => Fin.ext ?_)
  match a with
  | ⟨0, _⟩ => show win4_2.index t (0 : Fin 2) * 1 + 1 * (y 0).val = (y 0).val; omega
  | ⟨1, _⟩ => show win4_2.index t (1 : Fin 2) * 1024 + 1 * (y 1).val = (y 1).val; omega

/-- The body's value on point t's blocks, at an index j of the block: the dense layer of the three arrays at row 1024 t + j₀,
    column j₁. -/
theorem flushed_at (c : Dev nD) (t : Fin cfg4.N) (j : S1024x1024.Idx) :
    k0_pay1 (F := Ideal) (iblk4 V c 0 t) (iblk4 V c 1 t) (iblk4 V c 2 t) j
      = linG (V c main_v44) (V c main_v45) (V c main_v46) (ix2 (row t (j 0)) (j 1)) := by
  refine ((lin_pay_at _ _ _ j).trans ?_).trans (linG_apply (V c main_v44) (V c main_v45) (V c main_v46) (row t (j 0)) (j 1)).symm
  refine congrArg₂ (· + ·) (Finset.sum_congr rfl fun k _ => ?_) ?_
  · exact congrArg₂ (· * ·) (read_x V c t (ix2 (j 0) k)) (read_w V c t (ix2 k (j 1)))
  · exact read_b V c t (ix2 0 (j 1))

/-- What point t writes back is block t of the dense layer of the three arrays. -/
theorem flushed_eq (c : Dev nD) (t : Fin cfg4.N) :
    (dat4 V c).flushed 3 t = ((cfg4.win 3).blk t).view.read (Elt Ideal) (linG (V c main_v44) (V c main_v45) (V c main_v46)) := by
  show (cfg4.win 3).cut (grid4.coords t) ((dat4 V c).after 3 t) = _
  rw [after4_3]
  unfold out4_3
  rw [View.canon_unit_zero hz]
  simp only [View.ld_unit_zero (S := S1024x1024) hz, View.ld_unit_zero (S := S1x1024) hz]
  obtain ⟨-, -, -, -, -, -, e6, e7⟩ := idx_facts t
  funext j
  show k0_pay1 (F := Ideal) (iblk4 V c 0 t) (iblk4 V c 1 t) (iblk4 V c 2 t) j
    = linG (V c main_v44) (V c main_v45) (V c main_v46) (((cfg4.win 3).blk t).view.emb j)
  have hemb : ((cfg4.win 3).blk t).view.emb j = ix2 (row t (j 0)) (j 1) := by
    funext a; apply Fin.ext
    match a with
    | ⟨0, _⟩ => show win4_3.index t (0 : Fin 2) * 1024 + 1 * (j 0).val = t.val * 1024 + (j 0).val; omega
    | ⟨1, _⟩ => show win4_3.index t (1 : Fin 2) * 1024 + 1 * (j 1).val = (j 1).val; omega
  rw [hemb]
  exact flushed_at V c t j

/-- An index of the result array is in point t's block iff each coordinate is in the block's range on its axis. -/
theorem mem_blk (t : Fin cfg4.N) (i : S16384x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v47).slice (win4_3.rect t)).set ↔ _
  rw [View.set_slice_whole, Rect.mem_set_unit]
  exact Iff.rfl

/-- Row r of the result lies in the block of point r / 1024. -/
theorem cover (i : S16384x1024.Idx) : ∃ t : Fin cfg4.N, (cfg4.win 3).flush t = true ∧ i ∈ ((cfg4.win 3).blk t).view.set := by
  have hi0 : (i 0).val < 16384 := (i 0).isLt
  have hi1 : (i 1).val < 1024 := (i 1).isLt
  have hlt : (i 0).val / 1024 < cfg4.N := by have e : cfg4.N = 16 := N_4; omega
  obtain ⟨-, -, -, -, -, -, e6, e7⟩ := idx_facts ⟨(i 0).val / 1024, hlt⟩
  have e6' : win4_3.index ⟨(i 0).val / 1024, hlt⟩ (0 : Fin 2) = (i 0).val / 1024 := e6
  refine ⟨⟨(i 0).val / 1024, hlt⟩, flush4_3 _, ?_⟩
  rw [mem_blk]
  intro a
  match a with
  | ⟨0, _⟩ => show win4_3.index ⟨(i 0).val / 1024, hlt⟩ (0 : Fin 2) * 1024 ≤ (i 0).val ∧ (i 0).val < win4_3.index ⟨(i 0).val / 1024, hlt⟩ (0 : Fin 2) * 1024 + 1024; omega
  | ⟨1, _⟩ => show win4_3.index ⟨(i 0).val / 1024, hlt⟩ (1 : Fin 2) * 1024 ≤ (i 1).val ∧ (i 1).val < win4_3.index ⟨(i 0).val / 1024, hlt⟩ (1 : Fin 2) * 1024 + 1024; omega

/-- After the call its result array is the dense layer of its three arrays as the call found them. -/
theorem final (c : Dev nD) : (dat4 V c).arrAt 3 cfg4.N = linG (V c main_v44) (V c main_v45) (V c main_v46) :=
  (dat4 V c).arrAt_eq_of_cover 3 _ (fun t _ => flushed_eq V c t) cover

end Cert.KernelIdeal.Region4

end
-- ==== Proof.LinearBridge.lean ====
/-
  The dense layer of the kernel against the projection of the reference.

  The kernel flattens batch and position into one axis of 16384 rows, multiplies by the transposed weights and adds the
  bias held as a row; the reference contracts the [4, 4096, 1024] array with the weights over their second axis and adds
  the bias broadcast along batch and position. Row r of the flat array is (batch r / 4096, position r % 4096), the
  transposed weights at (k, n) are the weights at (n, k), and the row's entry (0, n) is the bias at n: so the kernel's
  dense layer of the re-laid arrays is the reference's projection re-laid to [16384, 1024], index by index, the two sums
  over the contracted axis term by term the same.
-/
import proofs.«135636_j71176198029846_1_alg».proof.Proof.Payloads
import proofs.«135636_j71176198029846_1_alg».proof.Proof.Gen.ReferenceIdeal.Read
import Idealize.ShloMosaic.Lib.Pipeline.Value
import Idealize.ShloMosaic.Lib.ValueIdx

noncomputable section

namespace Cert.Bridge

open Cert.KernelIdeal Cert.KernelIdeal.Gen Cert.KernelIdeal.Payloads Cert.ReferenceIdeal.Read
open Idealize.ShloMosaic Idealize.ShloMosaic.ValueIdx

/-- The kernel's dense layer of the flattened array, the transposed weights and the bias row is the reference's
    projection, flattened. -/
theorem lin_eq_proj (X : S4x4096x1024.Idx → EReal) (W : S1024x1024.Idx → EReal) (b : S1024.Idx → EReal) :
    linG (shapeCast S16384x1024 X shapeCasts_S4x4096x1024_S16384x1024)
        (transpose S1024x1024 [1, 0] W transposes_S1024x1024_S1024x1024_1_0)
        (shapeCast S1x1024 b shapeCasts_S1024_S1x1024)
      = shapeCast S16384x1024 (val_main_v3 (F := Ideal) X W b) shapeCasts_S4x4096x1024_S16384x1024 := by
  funext i
  obtain ⟨r, n, rfl⟩ : ∃ (r : Fin 16384) (n : Fin 1024), i = ix2 r n := ⟨i 0, i 1, eq_ix2 i⟩
  have hr : r.val < 16384 := r.isLt
  have hb : r.val / 4096 < 4 := by omega
  have hl : r.val % 4096 < 4096 := by omega
  refine (linG_apply _ _ _ r n).trans (Eq.symm ?_)
  refine (shapeCast_apply _ _ (ix2 r n) (ix3 (⟨r.val / 4096, hb⟩ : Fin 4) (⟨r.val % 4096, hl⟩ : Fin 4096) n) (by
    rw [Shape.rowMajor_val_three, Shape.rowMajor_val_two]
    show (r.val / 4096 * 4096 + r.val % 4096) * 1024 + n.val = r.val * 1024 + n.val
    omega)).trans ?_
  rw [val_main_v3_apply, val_main_v0_apply, val_main_v2_apply, val_main_v1_apply]
  refine congrArg₂ (· + ·) (Finset.sum_congr rfl fun k _ => congrArg₂ (· * ·) ?_ ?_) ?_
  · refine (shapeCast_apply X _ (ix2 r k) _ (by
      rw [Shape.rowMajor_val_three, Shape.rowMajor_val_two]
      show (r.val / 4096 * 4096 + r.val % 4096) * 1024 + k.val = r.val * 1024 + k.val
      omega)).symm
  · refine (transpose_apply [1, 0] W _ (ix2 k n) _ (fun a => by
      match a with
      | ⟨0, _⟩ => rfl
      | ⟨1, _⟩ => rfl)).symm
  · refine (shapeCast_apply b _ (ix2 0 n) _ (by
      rw [Shape.rowMajor_val_one, Shape.rowMajor_val_two]
      show n.val = 0 * 1024 + n.val
      omega)).symm

end Cert.Bridge

end
-- ==== Proof.AttnBridge.lean ====
/-
  The attention core of the kernel against the two batched products of the reference.

  Within a (batch, head) pair the kernel forms KV[d, e] = Σ_l K[l, d] · V[l, e] and then O[l, e] = Σ_d Q[l, d] · KV[d, e].
  The reference forms the same two sums as batched contractions: K against V over the 4096 positions, giving a
  [4, 16, 64, 64] array, then Q against that over the 64 columns. Index by index the kernel's function of (Q, K, V) is the
  reference's, the two nested sums term by term the same; nothing is reordered, so no finiteness is needed.
-/
import proofs.«135636_j71176198029846_1_alg».proof.Proof.Payloads
import proofs.«135636_j71176198029846_1_alg».proof.Proof.Gen.ReferenceIdeal.Read
import Idealize.ShloMosaic.Lib.ValueIdx

noncomputable section

namespace Cert.Bridge

open Cert.ReferenceIdeal Cert.ReferenceIdeal.Read Cert.KernelIdeal.Payloads
open Idealize.ShloMosaic Idealize.ShloMosaic.ValueIdx

/-- The kernel's attention core of the reference's softmaxed Q, masked softmaxed K and V is the reference's second
    batched product. -/
theorem attn_eq_ref (x0 : (⟨S4x4096x1024, .f32⟩ : BufTy).Contents (Elt Ideal)) (x1 : (⟨S4x4096, .i32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) :
    attnG (val_main_v16 (F := Ideal) x0 x2 x3) (val_main_v43 (F := Ideal) x0 x1 x4 x5) (val_main_v39 (F := Ideal) x0 x6 x7)
      = val_main_v45 (F := Ideal) x0 x1 x2 x3 x4 x5 x6 x7 := by
  funext i
  obtain ⟨b, h, l, e, rfl⟩ : ∃ (b : Fin 4) (h : Fin 16) (l : Fin 4096) (e : Fin 64), i = ix4 b h l e :=
    ⟨i 0, i 1, i 2, i 3, eq_ix4 i⟩
  refine (attnG_apply _ _ _ b h l e).trans (Eq.symm ?_)
  rw [val_main_v45_apply]
  refine Finset.sum_congr rfl fun d _ => ?_
  rw [val_main_v44_apply]
  have eq : lidx_main_v45 (ix4 b h l e) d = ix4 b h l d := funext fun a => by
    match a with
    | ⟨0, _⟩ => rfl
    | ⟨1, _⟩ => rfl
    | ⟨2, _⟩ => rfl
    | ⟨3, _⟩ => rfl
  refine congrArg₂ (· * ·) (congrArg _ eq) (Finset.sum_congr rfl fun l' _ => ?_)
  have ek : lidx_main_v44 (ridx_main_v45 (ix4 b h l e) d) l' = ix4 b h l' d := funext fun a => by
    match a with
    | ⟨0, _⟩ => rfl
    | ⟨1, _⟩ => rfl
    | ⟨2, _⟩ => rfl
    | ⟨3, _⟩ => rfl
  have ev : ridx_main_v44 (ridx_main_v45 (ix4 b h l e) d) l' = ix4 b h l' e := funext fun a => by
    match a with
    | ⟨0, _⟩ => rfl
    | ⟨1, _⟩ => rfl
    | ⟨2, _⟩ => rfl
    | ⟨3, _⟩ => rfl
  exact congrArg₂ (· * ·) (congrArg _ ek) (congrArg _ ev)

end Cert.Bridge

end
-- ==== Proof.LibShapeCast.lean ====
/-
  Re-laying an array out twice is re-laying it out once.

  A shape cast reads its operand at the index with the same row-major position. Matching positions through a third shape
  is matching them directly, so a cast to a shape t followed by a cast to a shape u is the cast to u, whatever t was
  (the library states the special case u = s, there and back).
-/
import Idealize.ShloMosaic.Lib.Pipeline.Value

namespace Cert.Lib

open Idealize.ShloMosaic

/-- Two shape casts in a row are the one shape cast to the last shape. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

end Cert.Lib
-- ==== Proof.HostMid.lean ====
/-
  The long stretch of host operations between the three projections and the attention call, read against the reference.

  The stretch re-lays each projection's [16384, 1024] result as [4, 4096, 16, 64], swaps position and head, and then, on
  the host, takes the softmax of Q over the 64 columns, the softmax of K over the 4096 positions times the mask
  broadcast along heads and columns, and leaves V as it is. The reference applies the very same operations to its own
  projections. So if a projection's array holds the reference's projection re-laid to [16384, 1024], the two re-layings
  compose to the reference's one (Lib.shapeCast_comp) and what the stretch leaves is, operation for operation, the
  reference's stage: nothing of the softmax is opened.
-/
import proofs.«135636_j71176198029846_1_alg».proof.Proof.Gen.KernelIdeal.Launch
import proofs.«135636_j71176198029846_1_alg».proof.Proof.Gen.ReferenceIdeal.Read
import proofs.«135636_j71176198029846_1_alg».proof.Proof.LibShapeCast
import Idealize.ShloMosaic.Lib.StableHlo.Run

set_option maxRecDepth 16384

noncomputable section

namespace Cert.KernelIdeal.HostMid

open Cert.KernelIdeal Cert.KernelIdeal.Gen Cert.ReferenceIdeal.Read Cert.Lib
open Idealize.ShloMosaic Idealize.ShloMosaic.TcCoe Idealize.SL.Sem Idealize.ShloMosaic.StableHlo

/-- Q: from the reference's Q projection, flattened, the stretch leaves the reference's softmax over the columns. -/
theorem softmax_q (W : Valuation τ sig (Elt Ideal)) (x0 : S4x4096x1024.Idx → EReal) (x2 : S1024x1024.Idx → EReal) (x3 : S1024.Idx → EReal)
    (h : W (Proc.devRef .tc main_v3) = shapeCast S16384x1024 (val_main_v3 (F := Ideal) x0 x2 x3) shapeCasts_S4x4096x1024_S16384x1024) :
    StableHlo.after (hostOps3 (F := Ideal)) W (Proc.devRef .tc main_v26) = val_main_v16 (F := Ideal) x0 x2 x3 := by
  after_results_simp
  rw [h, shapeCast_comp (val_main_v3 (F := Ideal) x0 x2 x3) shapeCasts_S4x4096x1024_S16384x1024]
  all_goals first | rfl | exact (by decide : S4x4096x1024.ShapeCasts S4x4096x16x64)

/-- K: from the reference's K projection, flattened, and the mask, the stretch leaves the reference's softmax over the
    positions times the broadcast mask. -/
theorem masked_softmax_k (W : Valuation τ sig (Elt Ideal)) (x0 : S4x4096x1024.Idx → EReal)
    (x1 : (⟨S4x4096, .i32⟩ : BufTy).Contents (Elt Ideal)) (x4 : S1024x1024.Idx → EReal) (x5 : S1024.Idx → EReal)
    (h : W (Proc.devRef .tc main_v6) = shapeCast S16384x1024 (val_main_v3 (F := Ideal) x0 x4 x5) shapeCasts_S4x4096x1024_S16384x1024)
    (h1 : W (Proc.devRef .tc main_arg1) = x1) :
    StableHlo.after (hostOps3 (F := Ideal)) W (Proc.devRef .tc main_v41) = val_main_v43 (F := Ideal) x0 x1 x4 x5 := by
  after_results_simp
  rw [h, h1, shapeCast_comp (val_main_v3 (F := Ideal) x0 x4 x5) shapeCasts_S4x4096x1024_S16384x1024]
  all_goals first | rfl | exact (by decide : S4x4096x1024.ShapeCasts S4x4096x16x64)

/-- V: from the reference's V projection, flattened, the stretch leaves the reference's V by heads. -/
theorem heads_v (W : Valuation τ sig (Elt Ideal)) (x0 : S4x4096x1024.Idx → EReal) (x6 : S1024x1024.Idx → EReal) (x7 : S1024.Idx → EReal)
    (h : W (Proc.devRef .tc main_v9) = shapeCast S16384x1024 (val_main_v3 (F := Ideal) x0 x6 x7) shapeCasts_S4x4096x1024_S16384x1024) :
    StableHlo.after (hostOps3 (F := Ideal)) W (Proc.devRef .tc main_v15) = val_main_v39 (F := Ideal) x0 x6 x7 := by
  after_results_simp
  rw [h, shapeCast_comp (val_main_v3 (F := Ideal) x0 x6 x7) shapeCasts_S4x4096x1024_S16384x1024]
  all_goals first | rfl | exact (by decide : S4x4096x1024.ShapeCasts S4x4096x16x64)

end Cert.KernelIdeal.HostMid

end
-- ==== Proof.KernelValue.lean ====
/-
  The idealized kernel's result as a function of its arguments: the fold through @main's eleven segments, read.

  At each segment boundary the buffers that later segments read are named by a closed form of the launch contents:
  the arguments never change; each projection call leaves the reference's projection of (activations, weights, bias),
  flattened to [16384, 1024] (Region*.final, then Bridge.lin_eq_proj); the host stretch between them and the attention
  call turns those into the reference's softmaxed Q, masked softmaxed K and V by heads (HostMid); the attention call
  leaves the reference's attention output (Region3.final, Bridge.attn_eq_ref); the merge back to [16384, 1024] is the
  reference's merge flattened; the last call is the projection again; and the final re-laying to [4, 4096, 1024] undoes
  the flattening. So the result buffer ends at the reference's last stage of the same arguments.
-/
import proofs.«135636_j71176198029846_1_alg».proof.Proof.Gen.KernelIdeal.Frame
import proofs.«135636_j71176198029846_1_alg».proof.Proof.Gen.ReferenceIdeal.Read
import proofs.«135636_j71176198029846_1_alg».proof.Proof.Region0
import proofs.«135636_j71176198029846_1_alg».proof.Proof.Region1
import proofs.«135636_j71176198029846_1_alg».proof.Proof.Region2
import proofs.«135636_j71176198029846_1_alg».proof.Proof.Region3
import proofs.«135636_j71176198029846_1_alg».proof.Proof.Region4
import proofs.«135636_j71176198029846_1_alg».proof.Proof.LinearBridge
import proofs.«135636_j71176198029846_1_alg».proof.Proof.AttnBridge
import proofs.«135636_j71176198029846_1_alg».proof.Proof.HostMid
import proofs.«135636_j71176198029846_1_alg».proof.Proof.LibShapeCast
import Idealize.ShloMosaic.Lib.StableHlo.Run

set_option maxRecDepth 16384

noncomputable section

namespace Cert.KernelIdeal.KValue

open Cert.KernelIdeal Cert.KernelIdeal.Gen Cert.KernelIdeal.Payloads Cert.ReferenceIdeal.Read Cert.Lib Cert.Bridge
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments: no host operation and no call writes one, so at every boundary they hold their launch contents -/

theorem W0_arg0 (c : Dev nD) : W0 m ρ c (Proc.devRef .tc main_arg0) = (m ((c : Thread nD τ).loc main_arg0)) :=
  rfl

theorem W0_arg1 (c : Dev nD) : W0 m ρ c (Proc.devRef .tc main_arg1) = (m ((c : Thread nD τ).loc main_arg1)) :=
  rfl

theorem W1_arg1 (c : Dev nD) : W1 m ρ c (Proc.devRef .tc main_arg1) = (m ((c : Thread nD τ).loc main_arg1)) :=
  (show W1 m ρ c (Proc.devRef .tc main_arg1) = W0 m ρ c (Proc.devRef .tc main_arg1) from by
    show StableHlo.after (hostOps0 (F := Ideal)) (W0 m ρ c) (Proc.devRef .tc main_arg1) = _; after_results).trans (W0_arg1 m ρ c)

theorem W2_arg1 (c : Dev nD) : W2 m ρ c (Proc.devRef .tc main_arg1) = (m ((c : Thread nD τ).loc main_arg1)) :=
  (W2_of_ne m ρ c main_arg1 (by decide)).trans (W1_arg1 m ρ c)

theorem W3_arg1 (c : Dev nD) : W3 m ρ c (Proc.devRef .tc main_arg1) = (m ((c : Thread nD τ).loc main_arg1)) :=
  (show W3 m ρ c (Proc.devRef .tc main_arg1) = W2 m ρ c (Proc.devRef .tc main_arg1) from by
    show StableHlo.after (hostOps1 (F := Ideal)) (W2 m ρ c) (Proc.devRef .tc main_arg1) = _; after_results).trans (W2_arg1 m ρ c)

theorem W4_arg1 (c : Dev nD) : W4 m ρ c (Proc.devRef .tc main_arg1) = (m ((c : Thread nD τ).loc main_arg1)) :=
  (W4_of_ne m ρ c main_arg1 (by decide)).trans (W3_arg1 m ρ c)

theorem W5_arg1 (c : Dev nD) : W5 m ρ c (Proc.devRef .tc main_arg1) = (m ((c : Thread nD τ).loc main_arg1)) :=
  (show W5 m ρ c (Proc.devRef .tc main_arg1) = W4 m ρ c (Proc.devRef .tc main_arg1) from by
    show StableHlo.after (hostOps2 (F := Ideal)) (W4 m ρ c) (Proc.devRef .tc main_arg1) = _; after_results).trans (W4_arg1 m ρ c)

theorem W6_arg1 (c : Dev nD) : W6 m ρ c (Proc.devRef .tc main_arg1) = (m ((c : Thread nD τ).loc main_arg1)) :=
  (W6_of_ne m ρ c main_arg1 (by decide)).trans (W5_arg1 m ρ c)

theorem W0_arg2 (c : Dev nD) : W0 m ρ c (Proc.devRef .tc main_arg2) = (m ((c : Thread nD τ).loc main_arg2)) :=
  rfl

theorem W0_arg3 (c : Dev nD) : W0 m ρ c (Proc.devRef .tc main_arg3) = (m ((c : Thread nD τ).loc main_arg3)) :=
  rfl

theorem W0_arg4 (c : Dev nD) : W0 m ρ c (Proc.devRef .tc main_arg4) = (m ((c : Thread nD τ).loc main_arg4)) :=
  rfl

theorem W1_arg4 (c : Dev nD) : W1 m ρ c (Proc.devRef .tc main_arg4) = (m ((c : Thread nD τ).loc main_arg4)) :=
  (show W1 m ρ c (Proc.devRef .tc main_arg4) = W0 m ρ c (Proc.devRef .tc main_arg4) from by
    show StableHlo.after (hostOps0 (F := Ideal)) (W0 m ρ c) (Proc.devRef .tc main_arg4) = _; after_results).trans (W0_arg4 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W0_arg5 (c : Dev nD) : W0 m ρ c (Proc.devRef .tc main_arg5) = (m ((c : Thread nD τ).loc main_arg5)) :=
  rfl

theorem W1_arg5 (c : Dev nD) : W1 m ρ c (Proc.devRef .tc main_arg5) = (m ((c : Thread nD τ).loc main_arg5)) :=
  (show W1 m ρ c (Proc.devRef .tc main_arg5) = W0 m ρ c (Proc.devRef .tc main_arg5) from by
    show StableHlo.after (hostOps0 (F := Ideal)) (W0 m ρ c) (Proc.devRef .tc main_arg5) = _; after_results).trans (W0_arg5 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W0_arg6 (c : Dev nD) : W0 m ρ c (Proc.devRef .tc main_arg6) = (m ((c : Thread nD τ).loc main_arg6)) :=
  rfl

theorem W1_arg6 (c : Dev nD) : W1 m ρ c (Proc.devRef .tc main_arg6) = (m ((c : Thread nD τ).loc main_arg6)) :=
  (show W1 m ρ c (Proc.devRef .tc main_arg6) = W0 m ρ c (Proc.devRef .tc main_arg6) from by
    show StableHlo.after (hostOps0 (F := Ideal)) (W0 m ρ c) (Proc.devRef .tc main_arg6) = _; after_results).trans (W0_arg6 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W3_arg6 (c : Dev nD) : W3 m ρ c (Proc.devRef .tc main_arg6) = (m ((c : Thread nD τ).loc main_arg6)) :=
  (show W3 m ρ c (Proc.devRef .tc main_arg6) = W2 m ρ c (Proc.devRef .tc main_arg6) from by
    show StableHlo.after (hostOps1 (F := Ideal)) (W2 m ρ c) (Proc.devRef .tc main_arg6) = _; after_results).trans (W2_arg6 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W0_arg7 (c : Dev nD) : W0 m ρ c (Proc.devRef .tc main_arg7) = (m ((c : Thread nD τ).loc main_arg7)) :=
  rfl

theorem W1_arg7 (c : Dev nD) : W1 m ρ c (Proc.devRef .tc main_arg7) = (m ((c : Thread nD τ).loc main_arg7)) :=
  (show W1 m ρ c (Proc.devRef .tc main_arg7) = W0 m ρ c (Proc.devRef .tc main_arg7) from by
    show StableHlo.after (hostOps0 (F := Ideal)) (W0 m ρ c) (Proc.devRef .tc main_arg7) = _; after_results).trans (W0_arg7 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W3_arg7 (c : Dev nD) : W3 m ρ c (Proc.devRef .tc main_arg7) = (m ((c : Thread nD τ).loc main_arg7)) :=
  (show W3 m ρ c (Proc.devRef .tc main_arg7) = W2 m ρ c (Proc.devRef .tc main_arg7) from by
    show StableHlo.after (hostOps1 (F := Ideal)) (W2 m ρ c) (Proc.devRef .tc main_arg7) = _; after_results).trans (W2_arg7 m ρ c)

theorem W4_arg7 (c : Dev nD) : W4 m ρ c (Proc.devRef .tc main_arg7) = (m ((c : Thread nD τ).loc main_arg7)) :=
  (W4_of_ne m ρ c main_arg7 (by decide)).trans (W3_arg7 m ρ c)

theorem W0_arg8 (c : Dev nD) : W0 m ρ c (Proc.devRef .tc main_arg8) = (m ((c : Thread nD τ).loc main_arg8)) :=
  rfl

theorem W1_arg8 (c : Dev nD) : W1 m ρ c (Proc.devRef .tc main_arg8) = (m ((c : Thread nD τ).loc main_arg8)) :=
  (show W1 m ρ c (Proc.devRef .tc main_arg8) = W0 m ρ c (Proc.devRef .tc main_arg8) from by
    show StableHlo.after (hostOps0 (F := Ideal)) (W0 m ρ c) (Proc.devRef .tc main_arg8) = _; after_results).trans (W0_arg8 m ρ c)

theorem W2_arg8 (c : Dev nD) : W2 m ρ c (Proc.devRef .tc main_arg8) = (m ((c : Thread nD τ).loc main_arg8)) :=
  (W2_of_ne m ρ c main_arg8 (by decide)).trans (W1_arg8 m ρ c)

theorem W3_arg8 (c : Dev nD) : W3 m ρ c (Proc.devRef .tc main_arg8) = (m ((c : Thread nD τ).loc main_arg8)) :=
  (show W3 m ρ c (Proc.devRef .tc main_arg8) = W2 m ρ c (Proc.devRef .tc main_arg8) from by
    show StableHlo.after (hostOps1 (F := Ideal)) (W2 m ρ c) (Proc.devRef .tc main_arg8) = _; after_results).trans (W2_arg8 m ρ c)

theorem W4_arg8 (c : Dev nD) : W4 m ρ c (Proc.devRef .tc main_arg8) = (m ((c : Thread nD τ).loc main_arg8)) :=
  (W4_of_ne m ρ c main_arg8 (by decide)).trans (W3_arg8 m ρ c)

theorem W5_arg8 (c : Dev nD) : W5 m ρ c (Proc.devRef .tc main_arg8) = (m ((c : Thread nD τ).loc main_arg8)) :=
  (show W5 m ρ c (Proc.devRef .tc main_arg8) = W4 m ρ c (Proc.devRef .tc main_arg8) from by
    show StableHlo.after (hostOps2 (F := Ideal)) (W4 m ρ c) (Proc.devRef .tc main_arg8) = _; after_results).trans (W4_arg8 m ρ c)

theorem W6_arg8 (c : Dev nD) : W6 m ρ c (Proc.devRef .tc main_arg8) = (m ((c : Thread nD τ).loc main_arg8)) :=
  (W6_of_ne m ρ c main_arg8 (by decide)).trans (W5_arg8 m ρ c)

theorem W7_arg8 (c : Dev nD) : W7 m ρ c (Proc.devRef .tc main_arg8) = (m ((c : Thread nD τ).loc main_arg8)) :=
  (show W7 m ρ c (Proc.devRef .tc main_arg8) = W6 m ρ c (Proc.devRef .tc main_arg8) from by
    show StableHlo.after (hostOps3 (F := Ideal)) (W6 m ρ c) (Proc.devRef .tc main_arg8) = _; after_results_simp).trans (W6_arg8 m ρ c)

theorem W8_arg8 (c : Dev nD) : W8 m ρ c (Proc.devRef .tc main_arg8) = (m ((c : Thread nD τ).loc main_arg8)) :=
  (W8_of_ne m ρ c main_arg8 (by decide)).trans (W7_arg8 m ρ c)

theorem W0_arg9 (c : Dev nD) : W0 m ρ c (Proc.devRef .tc main_arg9) = (m ((c : Thread nD τ).loc main_arg9)) :=
  rfl

theorem W1_arg9 (c : Dev nD) : W1 m ρ c (Proc.devRef .tc main_arg9) = (m ((c : Thread nD τ).loc main_arg9)) :=
  (show W1 m ρ c (Proc.devRef .tc main_arg9) = W0 m ρ c (Proc.devRef .tc main_arg9) from by
    show StableHlo.after (hostOps0 (F := Ideal)) (W0 m ρ c) (Proc.devRef .tc main_arg9) = _; after_results).trans (W0_arg9 m ρ c)

theorem W2_arg9 (c : Dev nD) : W2 m ρ c (Proc.devRef .tc main_arg9) = (m ((c : Thread nD τ).loc main_arg9)) :=
  (W2_of_ne m ρ c main_arg9 (by decide)).trans (W1_arg9 m ρ c)

theorem W3_arg9 (c : Dev nD) : W3 m ρ c (Proc.devRef .tc main_arg9) = (m ((c : Thread nD τ).loc main_arg9)) :=
  (show W3 m ρ c (Proc.devRef .tc main_arg9) = W2 m ρ c (Proc.devRef .tc main_arg9) from by
    show StableHlo.after (hostOps1 (F := Ideal)) (W2 m ρ c) (Proc.devRef .tc main_arg9) = _; after_results).trans (W2_arg9 m ρ c)

theorem W4_arg9 (c : Dev nD) : W4 m ρ c (Proc.devRef .tc main_arg9) = (m ((c : Thread nD τ).loc main_arg9)) :=
  (W4_of_ne m ρ c main_arg9 (by decide)).trans (W3_arg9 m ρ c)

theorem W5_arg9 (c : Dev nD) : W5 m ρ c (Proc.devRef .tc main_arg9) = (m ((c : Thread nD τ).loc main_arg9)) :=
  (show W5 m ρ c (Proc.devRef .tc main_arg9) = W4 m ρ c (Proc.devRef .tc main_arg9) from by
    show StableHlo.after (hostOps2 (F := Ideal)) (W4 m ρ c) (Proc.devRef .tc main_arg9) = _; after_results).trans (W4_arg9 m ρ c)

theorem W6_arg9 (c : Dev nD) : W6 m ρ c (Proc.devRef .tc main_arg9) = (m ((c : Thread nD τ).loc main_arg9)) :=
  (W6_of_ne m ρ c main_arg9 (by decide)).trans (W5_arg9 m ρ c)

theorem W7_arg9 (c : Dev nD) : W7 m ρ c (Proc.devRef .tc main_arg9) = (m ((c : Thread nD τ).loc main_arg9)) :=
  (show W7 m ρ c (Proc.devRef .tc main_arg9) = W6 m ρ c (Proc.devRef .tc main_arg9) from by
    show StableHlo.after (hostOps3 (F := Ideal)) (W6 m ρ c) (Proc.devRef .tc main_arg9) = _; after_results_simp).trans (W6_arg9 m ρ c)

theorem W8_arg9 (c : Dev nD) : W8 m ρ c (Proc.devRef .tc main_arg9) = (m ((c : Thread nD τ).loc main_arg9)) :=
  (W8_of_ne m ρ c main_arg9 (by decide)).trans (W7_arg9 m ρ c)

/-! ## Before and through the three projections -/

/-- The activations, flattened to [16384, 1024]. -/
theorem W1_v0 (c : Dev nD) : W1 m ρ c (Proc.devRef .tc main_v0) = shapeCast S16384x1024 (m ((c : Thread nD τ).loc main_arg0)) shapeCasts_S4x4096x1024_S16384x1024 := by
  show StableHlo.after (hostOps0 (F := Ideal)) (W0 m ρ c) (Proc.devRef .tc main_v0) = _
  after_results
  first | done | rfl

/-- Q's weights, transposed. -/
theorem W1_v1 (c : Dev nD) : W1 m ρ c (Proc.devRef .tc main_v1) = transpose S1024x1024 [1, 0] (m ((c : Thread nD τ).loc main_arg2)) transposes_S1024x1024_S1024x1024_1_0 := by
  show StableHlo.after (hostOps0 (F := Ideal)) (W0 m ρ c) (Proc.devRef .tc main_v1) = _
  after_results
  first | done | rfl

/-- Q's bias as a row. -/
theorem W1_v2 (c : Dev nD) : W1 m ρ c (Proc.devRef .tc main_v2) = shapeCast S1x1024 (m ((c : Thread nD τ).loc main_arg3)) shapeCasts_S1024_S1x1024 := by
  show StableHlo.after (hostOps0 (F := Ideal)) (W0 m ρ c) (Proc.devRef .tc main_v2) = _
  after_results
  first | done | rfl

/-- After the first call: the reference's Q projection, flattened. -/
theorem W2_v3 (c : Dev nD) : W2 m ρ c (Proc.devRef .tc main_v3) = shapeCast S16384x1024 (val_main_v3 (F := Ideal) (m ((c : Thread nD τ).loc main_arg0)) (m ((c : Thread nD τ).loc main_arg2)) (m ((c : Thread nD τ).loc main_arg3))) shapeCasts_S4x4096x1024_S16384x1024 :=
  (W2_arr m ρ c 3).trans ((Region0.final (V1 m ρ) c).trans
    ((congr (congr (congrArg linG (W1_v0 m ρ c)) (W1_v1 m ρ c)) (W1_v2 m ρ c)).trans (lin_eq_proj (m ((c : Thread nD τ).loc main_arg0)) (m ((c : Thread nD τ).loc main_arg2)) (m ((c : Thread nD τ).loc main_arg3)))))

/-- The flattened activations are an input of the first call: it leaves them. -/
theorem W2_v0 (c : Dev nD) : W2 m ρ c (Proc.devRef .tc main_v0) = shapeCast S16384x1024 (m ((c : Thread nD τ).loc main_arg0)) shapeCasts_S4x4096x1024_S16384x1024 :=
  ((W2_arr m ρ c 0).trans (((dat0 (V1 m ρ) c).arrAt_in 0 rfl _).trans (A_eq0 (V1 m ρ) c 0))).trans (W1_v0 m ρ c)

theorem W3_v0 (c : Dev nD) : W3 m ρ c (Proc.devRef .tc main_v0) = shapeCast S16384x1024 (m ((c : Thread nD τ).loc main_arg0)) shapeCasts_S4x4096x1024_S16384x1024 :=
  (show W3 m ρ c (Proc.devRef .tc main_v0) = W2 m ρ c (Proc.devRef .tc main_v0) from by
    show StableHlo.after (hostOps1 (F := Ideal)) (W2 m ρ c) (Proc.devRef .tc main_v0) = _; after_results).trans (W2_v0 m ρ c)

/-- K's weights, transposed. -/
theorem W3_v4 (c : Dev nD) : W3 m ρ c (Proc.devRef .tc main_v4) = transpose S1024x1024 [1, 0] (m ((c : Thread nD τ).loc main_arg4)) transposes_S1024x1024_S1024x1024_1_0 := by
  show StableHlo.after (hostOps1 (F := Ideal)) (W2 m ρ c) (Proc.devRef .tc main_v4) = _
  after_results
  rw [W2_arg4 m ρ c]
  first | done | rfl

/-- K's bias as a row. -/
theorem W3_v5 (c : Dev nD) : W3 m ρ c (Proc.devRef .tc main_v5) = shapeCast S1x1024 (m ((c : Thread nD τ).loc main_arg5)) shapeCasts_S1024_S1x1024 := by
  show StableHlo.after (hostOps1 (F := Ideal)) (W2 m ρ c) (Proc.devRef .tc main_v5) = _
  after_results
  rw [W2_arg5 m ρ c]
  first | done | rfl

theorem W3_v3 (c : Dev nD) : W3 m ρ c (Proc.devRef .tc main_v3) = shapeCast S16384x1024 (val_main_v3 (F := Ideal) (m ((c : Thread nD τ).loc main_arg0)) (m ((c : Thread nD τ).loc main_arg2)) (m ((c : Thread nD τ).loc main_arg3))) shapeCasts_S4x4096x1024_S16384x1024 :=
  (show W3 m ρ c (Proc.devRef .tc main_v3) = W2 m ρ c (Proc.devRef .tc main_v3) from by
    show StableHlo.after (hostOps1 (F := Ideal)) (W2 m ρ c) (Proc.devRef .tc main_v3) = _; after_results).trans (W2_v3 m ρ c)

/-- After the second call: the reference's K projection, flattened. -/
theorem W4_v6 (c : Dev nD) : W4 m ρ c (Proc.devRef .tc main_v6) = shapeCast S16384x1024 (val_main_v3 (F := Ideal) (m ((c : Thread nD τ).loc main_arg0)) (m ((c : Thread nD τ).loc main_arg4)) (m ((c : Thread nD τ).loc main_arg5))) shapeCasts_S4x4096x1024_S16384x1024 :=
  (W4_arr m ρ c 3).trans ((Region1.final (V3 m ρ) c).trans
    ((congr (congr (congrArg linG (W3_v0 m ρ c)) (W3_v4 m ρ c)) (W3_v5 m ρ c)).trans (lin_eq_proj (m ((c : Thread nD τ).loc main_arg0)) (m ((c : Thread nD τ).loc main_arg4)) (m ((c : Thread nD τ).loc main_arg5)))))

theorem W4_v0 (c : Dev nD) : W4 m ρ c (Proc.devRef .tc main_v0) = shapeCast S16384x1024 (m ((c : Thread nD τ).loc main_arg0)) shapeCasts_S4x4096x1024_S16384x1024 :=
  ((W4_arr m ρ c 0).trans (((dat1 (V3 m ρ) c).arrAt_in 0 rfl _).trans (A_eq1 (V3 m ρ) c 0))).trans (W3_v0 m ρ c)

theorem W4_v3 (c : Dev nD) : W4 m ρ c (Proc.devRef .tc main_v3) = shapeCast S16384x1024 (val_main_v3 (F := Ideal) (m ((c : Thread nD τ).loc main_arg0)) (m ((c : Thread nD τ).loc main_arg2)) (m ((c : Thread nD τ).loc main_arg3))) shapeCasts_S4x4096x1024_S16384x1024 :=
  (W4_of_ne m ρ c main_v3 (by decide)).trans (W3_v3 m ρ c)

theorem W5_v0 (c : Dev nD) : W5 m ρ c (Proc.devRef .tc main_v0) = shapeCast S16384x1024 (m ((c : Thread nD τ).loc main_arg0)) shapeCasts_S4x4096x1024_S16384x1024 :=
  (show W5 m ρ c (Proc.devRef .tc main_v0) = W4 m ρ c (Proc.devRef .tc main_v0) from by
    show StableHlo.after (hostOps2 (F := Ideal)) (W4 m ρ c) (Proc.devRef .tc main_v0) = _; after_results).trans (W4_v0 m ρ c)

/-- V's weights, transposed. -/
theorem W5_v7 (c : Dev nD) : W5 m ρ c (Proc.devRef .tc main_v7) = transpose S1024x1024 [1, 0] (m ((c : Thread nD τ).loc main_arg6)) transposes_S1024x1024_S1024x1024_1_0 := by
  show StableHlo.after (hostOps2 (F := Ideal)) (W4 m ρ c) (Proc.devRef .tc main_v7) = _
  after_results
  rw [W4_arg6 m ρ c]
  first | done | rfl

/-- V's bias as a row. -/
theorem W5_v8 (c : Dev nD) : W5 m ρ c (Proc.devRef .tc main_v8) = shapeCast S1x1024 (m ((c : Thread nD τ).loc main_arg7)) shapeCasts_S1024_S1x1024 := by
  show StableHlo.after (hostOps2 (F := Ideal)) (W4 m ρ c) (Proc.devRef .tc main_v8) = _
  after_results
  rw [W4_arg7 m ρ c]
  first | done | rfl

theorem W5_v3 (c : Dev nD) : W5 m ρ c (Proc.devRef .tc main_v3) = shapeCast S16384x1024 (val_main_v3 (F := Ideal) (m ((c : Thread nD τ).loc main_arg0)) (m ((c : Thread nD τ).loc main_arg2)) (m ((c : Thread nD τ).loc main_arg3))) shapeCasts_S4x4096x1024_S16384x1024 :=
  (show W5 m ρ c (Proc.devRef .tc main_v3) = W4 m ρ c (Proc.devRef .tc main_v3) from by
    show StableHlo.after (hostOps2 (F := Ideal)) (W4 m ρ c) (Proc.devRef .tc main_v3) = _; after_results).trans (W4_v3 m ρ c)

theorem W5_v6 (c : Dev nD) : W5 m ρ c (Proc.devRef .tc main_v6) = shapeCast S16384x1024 (val_main_v3 (F := Ideal) (m ((c : Thread nD τ).loc main_arg0)) (m ((c : Thread nD τ).loc main_arg4)) (m ((c : Thread nD τ).loc main_arg5))) shapeCasts_S4x4096x1024_S16384x1024 :=
  (show W5 m ρ c (Proc.devRef .tc main_v6) = W4 m ρ c (Proc.devRef .tc main_v6) from by
    show StableHlo.after (hostOps2 (F := Ideal)) (W4 m ρ c) (Proc.devRef .tc main_v6) = _; after_results).trans (W4_v6 m ρ c)

/-- After the third call: the reference's V projection, flattened. -/
theorem W6_v9 (c : Dev nD) : W6 m ρ c (Proc.devRef .tc main_v9) = shapeCast S16384x1024 (val_main_v3 (F := Ideal) (m ((c : Thread nD τ).loc main_arg0)) (m ((c : Thread nD τ).loc main_arg6)) (m ((c : Thread nD τ).loc main_arg7))) shapeCasts_S4x4096x1024_S16384x1024 :=
  (W6_arr m ρ c 3).trans ((Region2.final (V5 m ρ) c).trans
    ((congr (congr (congrArg linG (W5_v0 m ρ c)) (W5_v7 m ρ c)) (W5_v8 m ρ c)).trans (lin_eq_proj (m ((c : Thread nD τ).loc main_arg0)) (m ((c : Thread nD τ).loc main_arg6)) (m ((c : Thread nD τ).loc main_arg7)))))

theorem W6_v3 (c : Dev nD) : W6 m ρ c (Proc.devRef .tc main_v3) = shapeCast S16384x1024 (val_main_v3 (F := Ideal) (m ((c : Thread nD τ).loc main_arg0)) (m ((c : Thread nD τ).loc main_arg2)) (m ((c : Thread nD τ).loc main_arg3))) shapeCasts_S4x4096x1024_S16384x1024 :=
  (W6_of_ne m ρ c main_v3 (by decide)).trans (W5_v3 m ρ c)

theorem W6_v6 (c : Dev nD) : W6 m ρ c (Proc.devRef .tc main_v6) = shapeCast S16384x1024 (val_main_v3 (F := Ideal) (m ((c : Thread nD τ).loc main_arg0)) (m ((c : Thread nD τ).loc main_arg4)) (m ((c : Thread nD τ).loc main_arg5))) shapeCasts_S4x4096x1024_S16384x1024 :=
  (W6_of_ne m ρ c main_v6 (by decide)).trans (W5_v6 m ρ c)

/-! ## The softmaxes and the mask, the attention call, and the output projection -/

/-- Q entering the attention call: the reference's softmax over the columns. -/
theorem W7_v26 (c : Dev nD) : W7 m ρ c (Proc.devRef .tc main_v26) = val_main_v16 (F := Ideal) (m ((c : Thread nD τ).loc main_arg0)) (m ((c : Thread nD τ).loc main_arg2)) (m ((c : Thread nD τ).loc main_arg3)) :=
  HostMid.softmax_q (W6 m ρ c) (m ((c : Thread nD τ).loc main_arg0)) (m ((c : Thread nD τ).loc main_arg2)) (m ((c : Thread nD τ).loc main_arg3)) (W6_v3 m ρ c)

/-- K entering the attention call: the reference's softmax over the positions, masked. -/
theorem W7_v41 (c : Dev nD) : W7 m ρ c (Proc.devRef .tc main_v41) = val_main_v43 (F := Ideal) (m ((c : Thread nD τ).loc main_arg0)) (m ((c : Thread nD τ).loc main_arg1)) (m ((c : Thread nD τ).loc main_arg4)) (m ((c : Thread nD τ).loc main_arg5)) :=
  HostMid.masked_softmax_k (W6 m ρ c) (m ((c : Thread nD τ).loc main_arg0)) (m ((c : Thread nD τ).loc main_arg1)) (m ((c : Thread nD τ).loc main_arg4)) (m ((c : Thread nD τ).loc main_arg5)) (W6_v6 m ρ c) (W6_arg1 m ρ c)

/-- V entering the attention call: the reference's V by heads. -/
theorem W7_v15 (c : Dev nD) : W7 m ρ c (Proc.devRef .tc main_v15) = val_main_v39 (F := Ideal) (m ((c : Thread nD τ).loc main_arg0)) (m ((c : Thread nD τ).loc main_arg6)) (m ((c : Thread nD τ).loc main_arg7)) :=
  HostMid.heads_v (W6 m ρ c) (m ((c : Thread nD τ).loc main_arg0)) (m ((c : Thread nD τ).loc main_arg6)) (m ((c : Thread nD τ).loc main_arg7)) (W6_v9 m ρ c)

/-- After the attention call: the reference's attention output by heads. -/
theorem W8_v42 (c : Dev nD) : W8 m ρ c (Proc.devRef .tc main_v42) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans ((Region3.final (V7 m ρ) c).trans
    ((congr (congr (congrArg attnG (W7_v26 m ρ c)) (W7_v41 m ρ c)) (W7_v15 m ρ c)).trans (attn_eq_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))))

/-- The attention output with position and head swapped back and flattened: the reference's merged [4, 4096, 1024] array,
    flattened (its own re-laying to [4, 4096, 1024] composed with the flattening). -/
theorem W9_v44 (c : Dev nD) : W9 m ρ c (Proc.devRef .tc main_v44) = shapeCast S16384x1024 (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S4x4096x1024_S16384x1024 := by
  show StableHlo.after (hostOps4 (F := Ideal)) (W8 m ρ c) (Proc.devRef .tc main_v44) = _
  after_results
  rw [W8_v42 m ρ c]
  exact (shapeCast_comp (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) Cert.ReferenceIdeal.Gen.shapeCasts_S4x4096x16x64_S4x4096x1024
    shapeCasts_S4x4096x1024_S16384x1024 shapeCasts_S4x4096x16x64_S16384x1024).symm

/-- The output weights, transposed. -/
theorem W9_v45 (c : Dev nD) : W9 m ρ c (Proc.devRef .tc main_v45) = transpose S1024x1024 [1, 0] (m ((c : Thread nD τ).loc main_arg8)) transposes_S1024x1024_S1024x1024_1_0 := by
  show StableHlo.after (hostOps4 (F := Ideal)) (W8 m ρ c) (Proc.devRef .tc main_v45) = _
  after_results
  rw [W8_arg8 m ρ c]
  first | done | rfl

/-- The output bias as a row. -/
theorem W9_v46 (c : Dev nD) : W9 m ρ c (Proc.devRef .tc main_v46) = shapeCast S1x1024 (m ((c : Thread nD τ).loc main_arg9)) shapeCasts_S1024_S1x1024 := by
  show StableHlo.after (hostOps4 (F := Ideal)) (W8 m ρ c) (Proc.devRef .tc main_v46) = _
  after_results
  rw [W8_arg9 m ρ c]
  first | done | rfl

/-- After the last call: the reference's result, flattened. -/
theorem W10_v47 (c : Dev nD) : W10 m ρ c (Proc.devRef .tc main_v47) = shapeCast S16384x1024 (val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S4x4096x1024_S16384x1024 :=
  (W10_arr m ρ c 3).trans ((Region4.final (V9 m ρ) c).trans
    ((congr (congr (congrArg linG (W9_v44 m ρ c)) (W9_v45 m ρ c)) (W9_v46 m ρ c)).trans (lin_eq_proj (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)))))

/-- THE RESULT: the last boundary's contents at the result buffer are the reference's last stage of the arguments —
    the flattened result re-laid to [4, 4096, 1024], there and back. -/
theorem W11_v48 (c : Dev nD) : W11 m ρ c (Proc.devRef .tc main_v48) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (hostOps5 (F := Ideal)) (W10 m ρ c) (Proc.devRef .tc main_v48) = _
  after_results
  rw [W10_v47 m ρ c]
  exact shapeCast_shapeCast _ _ _

end Cert.KernelIdeal.KValue

end
-- ==== Proof.lean ====
/-
  Linear attention with sixteen heads over [4, 4096, 1024] activations: the kernel against its jnp reference, as functions
  to the extended reals.

  Both programs project the activations three times (x · Wᵀ + b for Q, K, V), split the 1024 columns into 16 heads of 64,
  take the softmax of Q over the 64 columns and of K over the 4096 positions, multiply K by the 0/1 mask broadcast along
  heads and columns, form per (batch, head) KV = Kᵀ · V and O = Q · KV, merge the heads back and project once more.
  The kernel does the four projections and the attention core in five calls on blocks (rows 1024 t … 1024 t + 1023 of the
  flattened [16384, 1024] array per grid point; one (batch, head) slab per grid point) and everything else on the host;
  the reference does all of it on the host.

  Read at the extended reals every change of float format is the identity and a product into a zero accumulator is the
  plain sum, so each call's result array is ONE function of its arrays (the blocks tile it), equal index by index to the
  reference's contraction with the same terms in the same sums; the host operations between the calls are the
  reference's own, applied to arrays that are the reference's re-laid by a shape cast, and two shape casts compose.
  No sum is reordered across a product and nothing is cancelled, so the precondition (finite inputs) is never opened.
  The ideal pass rewrote nothing, so the kernel's idealization is its own text (preserves is trivial).
-/
import proofs.«135636_j71176198029846_1_alg».proof.Defs
import proofs.«135636_j71176198029846_1_alg».proof.Proof.Gen.Kernel
import proofs.«135636_j71176198029846_1_alg».proof.Proof.Gen.Kernel.Skeleton
import proofs.«135636_j71176198029846_1_alg».proof.Proof.Gen.Kernel.Launch
import proofs.«135636_j71176198029846_1_alg».proof.Proof.Gen.Kernel.Points
import proofs.«135636_j71176198029846_1_alg».proof.Proof.Gen.Kernel.Frame
import proofs.«135636_j71176198029846_1_alg».proof.Proof.Gen.KernelIdeal
import proofs.«135636_j71176198029846_1_alg».proof.Proof.Gen.KernelIdeal.Skeleton
import proofs.«135636_j71176198029846_1_alg».proof.Proof.Gen.KernelIdeal.Launch
import proofs.«135636_j71176198029846_1_alg».proof.Proof.Gen.KernelIdeal.Points
import proofs.«135636_j71176198029846_1_alg».proof.Proof.Gen.KernelIdeal.Frame
import proofs.«135636_j71176198029846_1_alg».proof.Proof.Gen.ReferenceIdeal
import proofs.«135636_j71176198029846_1_alg».proof.Proof.Gen.Pre_finite_inputs
import proofs.«135636_j71176198029846_1_alg».proof.Proof.Gen.ReferenceIdeal.Run
import proofs.«135636_j71176198029846_1_alg».proof.Proof.Gen.ReferenceIdeal.Read
import proofs.«135636_j71176198029846_1_alg».proof.Proof.KernelRun
import proofs.«135636_j71176198029846_1_alg».proof.Proof.KernelValue
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the ten arguments both idealized programs end with the reference's last stage of those
    arguments in their result buffer: the kernel by the fold through its eleven segments, the reference by its run. -/
theorem algebraic : Cert.algebraic_KernelIdeal_ReferenceIdeal := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.W11_v48 m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
